-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S512x256 : Shape := ⟨2, ![512, 256]⟩
abbrev S512x1 : Shape := ⟨2, ![512, 1]⟩
abbrev S1x512 : Shape := ⟨2, ![1, 512]⟩
abbrev S256x512 : Shape := ⟨2, ![256, 512]⟩
abbrev S512x512 : Shape := ⟨2, ![512, 512]⟩
abbrev S512 : Shape := ⟨1, ![512]⟩
abbrev S1 : Shape := ⟨1, ![1]⟩
abbrev S_ : Shape := ⟨0, ![]⟩

abbrev nBuf : Space → Nat
  | .hbm => 8
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S1x1, .f32⟩
  | .local _ .vmem, ⟨9, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg0 : BitVec 32 := BitVec.ofNat 32 (i 0).val
  let c15_i32 : BitVec 32 := 15#32
  let v73 : BitVec 1 := Scalar.cmpi .eq arg0 c15_i32
  let arg1 : BitVec 32 := BitVec.ofNat 32 (i 1).val
  let c15_i32_26 : BitVec 32 := 15#32
  let v74 : BitVec 1 := Scalar.cmpi .eq arg1 c15_i32_26
  let v75 : BitVec 1 := Scalar.andi v73 v74
  let v76 : BitVec 32 := Scalar.extui v75
  let c0_i32_27 : BitVec 32 := 0#32
  let v77 : BitVec 1 := Scalar.cmpi .ne v76 c0_i32_27
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  transposes_S512x256_p1_0_S256x512 : S512x256.Transposes [1, 0] S256x512
  reduces_S512x256_S512 : S512x256.Reduces [1] S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S512x512_d0_w32 : S512x512.Iotas .tc 32 [0]
  iota_S512x512_d1_w32 : S512x512.Iotas .tc 32 [1]
  natLt_1_32 : 1 < 32
  reduces_S512x512_S512 : S512x512.Reduces [1] S512
  reduces_S512x1_S1 : S512x1.Reduces [0] S1
  shapeCasts_S1_S1x1 : S1.ShapeCasts S1x1
  shapeCasts_S1x1_S_ : S1x1.ShapeCasts S_
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 64
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S256x8192, .f32⟩
  | .hbm, ⟨6, _⟩ => ⟨S8192x8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S1x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x1, .i32⟩
  | .hbm, ⟨35, _⟩ => ⟨S1x8192, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .i32⟩
  | .hbm, ⟨51, _⟩ => ⟨S_, .i32⟩
  | .hbm, ⟨52, _⟩ => ⟨S8192x8192, .i32⟩
  | .hbm, ⟨53, _⟩ => ⟨S8192x8192, .i32⟩
  | .hbm, ⟨54, _⟩ => ⟨S8192x8192, .i32⟩
  | .hbm, ⟨55, _⟩ => ⟨S8192x8192, .i1⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_7 : Ref sig .tc := ⟨.hbm, 48, rfl⟩
abbrev main_v38 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_cst : Ref sig .tc := ⟨.hbm, 56, rfl⟩
abbrev main_call1_v5 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KBlocks.lean ====
/-
  The kernel's region as the pipeline library sees it: what the arrays hold when the region is entered, the block of
  each input window at a grid point, and what the scratch accumulator holds after each point.

  The grid is 16 × 16, walked row-major: point t is tile (t / 16, t % 16). The two windows on the points' array both
  read it — rows 512·(t / 16) … and rows 512·(t % 16) … — so each holds HALF of the array's share and the array is
  never written. The labels reach the kernel as a column and as a row (two reshapes of the label vector). The
  one-element result is stored only at the last point; until then its staging buffer is left as found.

  The accumulator is a one-element scratch: zeroed at the first point, then at every point replaced by itself plus
  the point's tile sum. accAt n is its contents after point n: a left fold of the body's arithmetic from zero.
-/
import proofs.«123170_j7172595385025_1_alg».proof.Proof.Gen.Kernel.Launch
import proofs.«123170_j7172595385025_1_alg».proof.Proof.Gen.Kernel.Skeleton
import proofs.«123170_j7172595385025_1_alg».proof.Proof.Gen.Kernel.Points
import Idealize.ShloMosaic.Lib.Pipeline.FrameBody
import Idealize.ShloMosaic.Lib.Pipeline.FrameSuffix
import Idealize.ShloMosaic.Lib.Pipeline.Regions

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered -/

/-- Core `c`'s buffers at launch, as a valuation; -/
abbrev Vl (c : Dev nD) : Valuation τ sig (Elt F) := fun b => m (c, b)
/-- after the two reshapes of the labels, when the region is entered; -/
abbrev V0 (c : Dev nD) : Valuation τ sig (Elt F) := StableHlo.after hostOps0 (Vl m c)
/-- and read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The accumulator, point by point -/

/-- The scratch accumulator, a whole scoped buffer of the kernel's own. -/
abbrev scM : Memref sig .tc .vmem S1x1 .f32 := Memref.whole cc0_scratch0

/-- The accumulator after point `t` when it held `acc` before the point's update: `acc` plus the tile sum, as the
    body computes it from the four input blocks. -/
def stepAt (c : Dev nD) (t : Fin cfg0.N) (acc : Vec F S1x1 .f32) : Vec F S1x1 .f32 :=
  k0_pay1 (BitVec.ofNat 32 ((grid0.coords t) 0).val) (BitVec.ofNat 32 ((grid0.coords t) 1).val)
    (k0_pay3 (iblk m c 0 t) (iblk m c 1 t)) (iblk m c 2 t) (iblk m c 3 t) acc

/-- The same at a number: past the grid nothing happens. -/
def stepN (c : Dev nD) (n : ℕ) (acc : Vec F S1x1 .f32) : Vec F S1x1 .f32 :=
  if h : n < cfg0.N then stepAt m c ⟨n, h⟩ acc else acc

/-- What the accumulator holds after point `n`: zeroed at the first point, then updated at every point. -/
def accAt (c : Dev nD) : ℕ → Vec F S1x1 .f32
  | 0 => stepN m c 0 (k0_pay2 (F := F))
  | n + 1 => stepN m c (n + 1) (accAt c n)

theorem accAt_zero (c : Dev nD) (t : Fin cfg0.N) (h : t.val = 0) : accAt m c t.val = stepAt m c t (k0_pay2 (F := F)) := by
  obtain ⟨n, hn⟩ := t
  subst h
  show stepN m c 0 _ = _
  unfold stepN; rw [dif_pos hn]

theorem accAt_pos (c : Dev nD) (t : Fin cfg0.N) (h : t.val ≠ 0) : accAt m c t.val = stepAt m c t (accAt m c (t.val - 1)) := by
  obtain ⟨n, hn⟩ := t
  cases n with
  | zero => exact absurd rfl h
  | succ n =>
    show stepN m c (n + 1) (accAt m c n) = _
    unfold stepN; rw [dif_pos hn]; rfl

/-! ## The region's invariant -/

/-- Before the first point the accumulator holds anything; after point `n` it holds `accAt n`. -/
def PhiS (c : Dev nD) : ℕ → sProp 𝕄
  | 0 => iprop(∃ d, owns (c : Thread nD τ) scM fullShare d)
  | n + 1 => owns (c : Thread nD τ) scM fullShare (accAt m c n)

theorem PhiS_pos (c : Dev nD) (n : ℕ) (hz : n ≠ 0) : PhiS m c n = owns (c : Thread nD τ) scM fullShare (accAt m c (n - 1)) := by
  cases n with
  | zero => exact absurd rfl hz
  | succ n => rfl

/-! ## The proof data -/

/-- The proof data on core `c`: the arrays as the region finds them; after the body each input's buffer at its block
    and, at the last point, the result's at the accumulator; the invariant the accumulator's contents; the points'
    array shared in halves between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val
  Φ t := PhiS m c t.val
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = accAt m c t.val := by dsimp only [dats]

/-- Each input's current staging buffer holds its block at every point, fetched there or not: where it is not fetched
    its block index has not moved, and the body leaves the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body's two branch conditions, in closed form -/

/-- The zeroing's condition (both coordinates zero), as the body computes it from the coordinates; -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- it holds at the first point only. -/
theorem hfirst : ∀ t : Fin cfg0.N, condFirst (grid0.coords t) ↔ t.val = 0 :=
  (by decide +kernel : ∀ t : Fin grid0.N, condFirst (grid0.coords t) ↔ t.val = 0)

/-- The result store's condition (both coordinates at their last value); -/
abbrev condLast (i : grid0.Coords) : Prop := k0_cond2 i = 1#1
/-- it holds at the last point only. -/
theorem hlast : ∀ t : Fin cfg0.N, condLast (grid0.coords t) ↔ t.val = 255 :=
  (by decide +kernel : ∀ t : Fin grid0.N, condLast (grid0.coords t) ↔ t.val = 255)

/-- The inputs are never idle; the result's window is idle at every point but the last, and written back at the last
    only. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, t.val ≠ 255 → cfg0.idle 4 (grid0.coords t) = true := by decide +kernel
theorem live4 : ∀ t : Fin cfg0.N, t.val = 255 → cfg0.idle 4 (grid0.coords t) = false := by decide +kernel
theorem noFlush4 : ∀ t : Fin cfg0.N, t.val ≠ 255 → (cfg0.win 4).flush t = false := by decide +kernel

/-- The grid has 256 points. -/
theorem N_eq : cfg0.N = 256 := N_0

end Cert.Kernel.Hand

end
-- ==== Proof.KBody.lean ====
import proofs.«123170_j7172595385025_1_alg».proof.Proof.KBlocks

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through a whole block

Every access of the body goes through the unit-stride rectangle of its memref's own sizes at zero offsets: all of the
block. Such a load reads what the memref holds, and after such a store the memref holds the value stored. -/

theorem unit_emb {a b : Nat} (h : ∀ d, (![0, 0] : Fin 2 → Nat) d + (![a, b] : Fin 2 → Nat) d ≤ (⟨2, ![a, b]⟩ : Shape).size d)
    (x : (⟨2, ![a, b]⟩ : Shape).Idx) : (Rect.unit (s := ⟨2, ![a, b]⟩) ![0, 0] ![a, b] h).emb x = x := by
  funext d; apply Fin.ext; rw [Rect.emb_apply]
  fin_cases d
  · show 0 + 1 * (x 0).val = (x 0).val; omega
  · show 0 + 1 * (x 1).val = (x 1).val; omega

omit [FloatOps F] in
theorem read_all {a b : Nat} {e : EltTy} (c : Dev nD) (M : Memref sig .tc .vmem ⟨2, ![a, b]⟩ e)
    (h : ∀ d, (![0, 0] : Fin 2 → Nat) d + (![a, b] : Fin 2 → Nat) d ≤ (⟨2, ![a, b]⟩ : Shape).size d)
    (g : Buf (Elt F) (M.view.loc (c : Thread nD τ))) :
    (M.access (Rect.unit (s := ⟨2, ![a, b]⟩) ![0, 0] ![a, b] h)).read (Elt F) g = M.view.read (Elt F) g := by
  funext x
  show _root_.cast _ (g (M.view.emb ((Rect.unit (s := ⟨2, ![a, b]⟩) ![0, 0] ![a, b] h).emb x))) = _root_.cast _ (g (M.view.emb x))
  rw [unit_emb]

omit [FloatOps F] in
theorem read_write_all {a b : Nat} {e : EltTy} (c : Dev nD) (M : Memref sig .tc .vmem ⟨2, ![a, b]⟩ e)
    (h : ∀ d, (![0, 0] : Fin 2 → Nat) d + (![a, b] : Fin 2 → Nat) d ≤ (⟨2, ![a, b]⟩ : Shape).size d)
    (f : Buf (Elt F) (M.view.loc (c : Thread nD τ))) (v : (⟨2, ![a, b]⟩ : Shape).Idx → Elt F e) :
    M.view.read (Elt F) ((M.access (Rect.unit (s := ⟨2, ![a, b]⟩) ![0, 0] ![a, b] h)).write (Elt F) f v Finset.univ) = v := by
  funext y
  conv_lhs => rw [← unit_emb h y]
  rw [View.read_slice_write_emb _ _ _ (Finset.mem_univ _)]

/-- The whole-block rectangles of the body's four block shapes, as the program writes them. -/
abbrev rX : Rect S512x256 := Rect.unit (s := S512x256) ![0, 0] S512x256.size inb_S512x256_S512x256_0_0
abbrev rC : Rect S512x1 := Rect.unit (s := S512x1) ![0, 0] S512x1.size inb_S512x1_S512x1_0_0
abbrev rR : Rect S1x512 := Rect.unit (s := S1x512) ![0, 0] S1x512.size inb_S1x512_S1x512_0_0
abbrev rA : Rect S1x1 := Rect.unit (s := S1x1) ![0, 0] S1x1.size inb_S1x1_S1x1_0_0

/-! ## The body on any whole staging memrefs, case by case

The body loads the four input blocks and the accumulator and stores the accumulator's update; at the first point it
zeroes the accumulator before that, at the last it copies the accumulator into the result's buffer after it. The
buffers it does not store into come back as they were. -/

/-- A point that is neither the first nor the last: the accumulator goes from `acc` to its update; the result's buffer
    is not touched (it is not even named here). -/
theorem run_mid (c : Dev nD) (E : Set ℕ) (i : grid0.Coords)
    (arg2 : Memref sig .tc .vmem S512x256 .f32) (harg2 : arg2.IsWhole) (arg3 : Memref sig .tc .vmem S512x256 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole)
    (hf : ¬condFirst i) (hl : ¬condLast i)
    (x0 x1 : Vec F S512x256 .f32) (l0 : Vec F S512x1 .i32) (l1 : Vec F S1x512 .i32) (acc : Vec F S1x1 .f32) (K : PUnit → sProp 𝕄) :
    iprop(owns (c : Thread nD τ) arg2 fullShare x0 ∗ owns (c : Thread nD τ) arg3 fullShare x1 ∗ owns (c : Thread nD τ) arg4 fullShare l0
        ∗ owns (c : Thread nD τ) arg5 fullShare l1 ∗ owns (c : Thread nD τ) arg7 fullShare acc
        ∗ (iprop(owns (c : Thread nD τ) arg2 fullShare x0 ∗ owns (c : Thread nD τ) arg3 fullShare x1 ∗ owns (c : Thread nD τ) arg4 fullShare l0
            ∗ owns (c : Thread nD τ) arg5 fullShare l1
            ∗ owns (c : Thread nD τ) arg7 fullShare (k0_pay1 (BitVec.ofNat 32 (i 0).val) (BitVec.ofNat 32 (i 1).val) (k0_pay3 x0 x1) l0 l1 acc)) -∗ K ⟨⟩))
      ⊢ wp frame (wpE (defs₀ (F := F)) Variants.none c none) E (cc0__contrastive_kernel i arg2 harg2 arg3 harg3 arg4 harg4 arg5 harg5 arg6 harg6 arg7 harg7) K := by
  simp only [cc0__contrastive_kernel_eq_skeleton]; unfold cc0__contrastive_kernel_skel
  simp only [k0_part1_eq_skeleton]; unfold k0_part1_skel
  simp only [Prog.lift, Prog.bind_op, Prog.bind_ret, Prog.bind_assoc, Prog.pure_eq_ret, dif_neg hf, dif_neg hl]
  unfold owns
  iintro ⟨⟨%f2, %hf2, H2⟩, ⟨%f3, %hf3, H3⟩, ⟨%f4, %hf4, H4⟩, ⟨%f5, %hf5, H5⟩, ⟨%f7, %hf7, H7⟩, Hk⟩
  iapply (wp_load_rect Variants.none (c : Thread nD τ) none E (m := arg2) (r := rX) (View.set_slice_subset _ _)) $$ H2
  iintro H2
  iapply (wp_load_rect Variants.none (c : Thread nD τ) none E (m := arg3) (r := rX) (View.set_slice_subset _ _)) $$ H3
  iintro H3
  iapply (wp_load_rect Variants.none (c : Thread nD τ) none E (m := arg4) (r := rC) (View.set_slice_subset _ _)) $$ H4
  iintro H4
  iapply (wp_load_rect Variants.none (c : Thread nD τ) none E (m := arg5) (r := rR) (View.set_slice_subset _ _)) $$ H5
  iintro H5
  iapply (wp_load_rect Variants.none (c : Thread nD τ) none E (m := arg7) (r := rA) (View.set_slice_subset _ _)) $$ H7
  iintro H7
  iapply (wp_load_rect Variants.none (c : Thread nD τ) none E (m := arg7) (r := rA) (View.set_slice_subset _ _)) $$ H7
  iintro H7
  iapply (wp_store Variants.none (c : Thread nD τ) none E (m := arg7) (r := rA) (Mk := Finset.univ) (View.set_slice_subset _ _)) $$ H7
  iintro H7
  rw [wp_ret]; imodintro
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  iexists _; isplitr
  swap; · iexact H7
  ipureintro
  rw [read_write_all, read_all, read_all, read_all, read_all, read_all, hf2, hf3, hf4, hf5, hf7]

/-- The first point: the accumulator, whatever it held, is zeroed and then updated. -/
theorem run_first (c : Dev nD) (E : Set ℕ) (i : grid0.Coords)
    (arg2 : Memref sig .tc .vmem S512x256 .f32) (harg2 : arg2.IsWhole) (arg3 : Memref sig .tc .vmem S512x256 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole)
    (hf : condFirst i) (hl : ¬condLast i)
    (x0 x1 : Vec F S512x256 .f32) (l0 : Vec F S512x1 .i32) (l1 : Vec F S1x512 .i32) (acc : Vec F S1x1 .f32) (K : PUnit → sProp 𝕄) :
    iprop(owns (c : Thread nD τ) arg2 fullShare x0 ∗ owns (c : Thread nD τ) arg3 fullShare x1 ∗ owns (c : Thread nD τ) arg4 fullShare l0
        ∗ owns (c : Thread nD τ) arg5 fullShare l1 ∗ owns (c : Thread nD τ) arg7 fullShare acc
        ∗ (iprop(owns (c : Thread nD τ) arg2 fullShare x0 ∗ owns (c : Thread nD τ) arg3 fullShare x1 ∗ owns (c : Thread nD τ) arg4 fullShare l0
            ∗ owns (c : Thread nD τ) arg5 fullShare l1
            ∗ owns (c : Thread nD τ) arg7 fullShare (k0_pay1 (BitVec.ofNat 32 (i 0).val) (BitVec.ofNat 32 (i 1).val) (k0_pay3 x0 x1) l0 l1 (k0_pay2 (F := F)))) -∗ K ⟨⟩))
      ⊢ wp frame (wpE (defs₀ (F := F)) Variants.none c none) E (cc0__contrastive_kernel i arg2 harg2 arg3 harg3 arg4 harg4 arg5 harg5 arg6 harg6 arg7 harg7) K := by
  simp only [cc0__contrastive_kernel_eq_skeleton]; unfold cc0__contrastive_kernel_skel
  simp only [k0_part1_eq_skeleton]; unfold k0_part1_skel
  simp only [Prog.lift, Prog.bind_op, Prog.bind_ret, Prog.bind_assoc, Prog.pure_eq_ret, dif_pos hf, dif_neg hl]
  unfold owns
  iintro ⟨⟨%f2, %hf2, H2⟩, ⟨%f3, %hf3, H3⟩, ⟨%f4, %hf4, H4⟩, ⟨%f5, %hf5, H5⟩, ⟨%f7, %hf7, H7⟩, Hk⟩
  iapply (wp_load_rect Variants.none (c : Thread nD τ) none E (m := arg7) (r := rA) (View.set_slice_subset _ _)) $$ H7
  iintro H7
  iapply (wp_store Variants.none (c : Thread nD τ) none E (m := arg7) (r := rA) (Mk := Finset.univ) (View.set_slice_subset _ _)) $$ H7
  iintro H7
  iapply (wp_load_rect Variants.none (c : Thread nD τ) none E (m := arg2) (r := rX) (View.set_slice_subset _ _)) $$ H2
  iintro H2
  iapply (wp_load_rect Variants.none (c : Thread nD τ) none E (m := arg3) (r := rX) (View.set_slice_subset _ _)) $$ H3
  iintro H3
  iapply (wp_load_rect Variants.none (c : Thread nD τ) none E (m := arg4) (r := rC) (View.set_slice_subset _ _)) $$ H4
  iintro H4
  iapply (wp_load_rect Variants.none (c : Thread nD τ) none E (m := arg5) (r := rR) (View.set_slice_subset _ _)) $$ H5
  iintro H5
  iapply (wp_load_rect Variants.none (c : Thread nD τ) none E (m := arg7) (r := rA) (View.set_slice_subset _ _)) $$ H7
  iintro H7
  iapply (wp_load_rect Variants.none (c : Thread nD τ) none E (m := arg7) (r := rA) (View.set_slice_subset _ _)) $$ H7
  iintro H7
  iapply (wp_store Variants.none (c : Thread nD τ) none E (m := arg7) (r := rA) (Mk := Finset.univ) (View.set_slice_subset _ _)) $$ H7
  iintro H7
  rw [wp_ret]; imodintro
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  iexists _; isplitr
  swap; · iexact H7
  ipureintro
  rw [read_write_all, read_all, read_all, read_all, read_all, read_all, read_write_all, hf2, hf3, hf4, hf5]

/-- The last point: the accumulator is updated, and the result's buffer, whatever it held, receives the update. -/
theorem run_last (c : Dev nD) (E : Set ℕ) (i : grid0.Coords)
    (arg2 : Memref sig .tc .vmem S512x256 .f32) (harg2 : arg2.IsWhole) (arg3 : Memref sig .tc .vmem S512x256 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole)
    (hf : ¬condFirst i) (hl : condLast i)
    (x0 x1 : Vec F S512x256 .f32) (l0 : Vec F S512x1 .i32) (l1 : Vec F S1x512 .i32) (acc o : Vec F S1x1 .f32) (K : PUnit → sProp 𝕄) :
    iprop(owns (c : Thread nD τ) arg2 fullShare x0 ∗ owns (c : Thread nD τ) arg3 fullShare x1 ∗ owns (c : Thread nD τ) arg4 fullShare l0
        ∗ owns (c : Thread nD τ) arg5 fullShare l1 ∗ owns (c : Thread nD τ) arg6 fullShare o ∗ owns (c : Thread nD τ) arg7 fullShare acc
        ∗ (iprop(owns (c : Thread nD τ) arg2 fullShare x0 ∗ owns (c : Thread nD τ) arg3 fullShare x1 ∗ owns (c : Thread nD τ) arg4 fullShare l0
            ∗ owns (c : Thread nD τ) arg5 fullShare l1
            ∗ owns (c : Thread nD τ) arg6 fullShare (k0_pay1 (BitVec.ofNat 32 (i 0).val) (BitVec.ofNat 32 (i 1).val) (k0_pay3 x0 x1) l0 l1 acc)
            ∗ owns (c : Thread nD τ) arg7 fullShare (k0_pay1 (BitVec.ofNat 32 (i 0).val) (BitVec.ofNat 32 (i 1).val) (k0_pay3 x0 x1) l0 l1 acc)) -∗ K ⟨⟩))
      ⊢ wp frame (wpE (defs₀ (F := F)) Variants.none c none) E (cc0__contrastive_kernel i arg2 harg2 arg3 harg3 arg4 harg4 arg5 harg5 arg6 harg6 arg7 harg7) K := by
  simp only [cc0__contrastive_kernel_eq_skeleton]; unfold cc0__contrastive_kernel_skel
  simp only [k0_part1_eq_skeleton]; unfold k0_part1_skel
  simp only [Prog.lift, Prog.bind_op, Prog.bind_ret, Prog.bind_assoc, Prog.pure_eq_ret, dif_neg hf, dif_pos hl]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  iapply (wp_load_rect Variants.none (c : Thread nD τ) none E (m := arg2) (r := rX) (View.set_slice_subset _ _)) $$ H2
  iintro H2
  iapply (wp_load_rect Variants.none (c : Thread nD τ) none E (m := arg3) (r := rX) (View.set_slice_subset _ _)) $$ H3
  iintro H3
  iapply (wp_load_rect Variants.none (c : Thread nD τ) none E (m := arg4) (r := rC) (View.set_slice_subset _ _)) $$ H4
  iintro H4
  iapply (wp_load_rect Variants.none (c : Thread nD τ) none E (m := arg5) (r := rR) (View.set_slice_subset _ _)) $$ H5
  iintro H5
  iapply (wp_load_rect Variants.none (c : Thread nD τ) none E (m := arg7) (r := rA) (View.set_slice_subset _ _)) $$ H7
  iintro H7
  iapply (wp_load_rect Variants.none (c : Thread nD τ) none E (m := arg7) (r := rA) (View.set_slice_subset _ _)) $$ H7
  iintro H7
  iapply (wp_store Variants.none (c : Thread nD τ) none E (m := arg7) (r := rA) (Mk := Finset.univ) (View.set_slice_subset _ _)) $$ H7
  iintro H7
  iapply (wp_load_rect Variants.none (c : Thread nD τ) none E (m := arg7) (r := rA) (View.set_slice_subset _ _)) $$ H7
  iintro H7
  iapply (wp_load_rect Variants.none (c : Thread nD τ) none E (m := arg6) (r := rA) (View.set_slice_subset _ _)) $$ H6
  iintro H6
  iapply (wp_store Variants.none (c : Thread nD τ) none E (m := arg6) (r := rA) (Mk := Finset.univ) (View.set_slice_subset _ _)) $$ H6
  iintro H6
  rw [wp_ret]; imodintro
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    rw [read_write_all, read_all, read_write_all, read_all, read_all, read_all, read_all, read_all, hf2, hf3, hf4, hf5, hf7]
  iexists _; isplitr
  swap; · iexact H7
  ipureintro
  rw [read_write_all, read_all, read_all, read_all, read_all, read_all, hf2, hf3, hf4, hf5, hf7]

/-! ## The body obligation at a generic point -/

variable (m : (ℓ : Loc nD τ sig) → Buf (Elt F) ℓ)

/-- The current staging memref of each window at point `t`, spelled as the pipeline passes it. -/
abbrev ms0 (t : Fin cfg0.N) : Memref sig .tc .vmem S512x256 .f32 := win0_0.stage (cfg0.slots t 0)
abbrev ms1 (t : Fin cfg0.N) : Memref sig .tc .vmem S512x256 .f32 := win0_1.stage (cfg0.slots t 1)
abbrev ms2 (t : Fin cfg0.N) : Memref sig .tc .vmem S512x1 .i32 := win0_2.stage (cfg0.slots t 2)
abbrev ms3 (t : Fin cfg0.N) : Memref sig .tc .vmem S1x512 .i32 := win0_3.stage (cfg0.slots t 3)
abbrev ms4 (t : Fin cfg0.N) : Memref sig .tc .vmem S1x1 .f32 := win0_4.stage (cfg0.slots t 4)

/-- What the body is called with at point `t`: the invariant, the core owing nothing, every window's current buffer at
    what it then holds; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0_0]
theorem leaves1 (c : Dev nD) (t : Fin cfg0.N) : (dats m 0 c).leavesExact 1 t = owns (c : Thread nD τ) (ms1 t) fullShare (iblk m c 1 t) := by
  unfold Dat.leavesExact; rw [live1 t, after0_1]
theorem leaves2 (c : Dev nD) (t : Fin cfg0.N) : (dats m 0 c).leavesExact 2 t = owns (c : Thread nD τ) (ms2 t) fullShare (iblk m c 2 t) := by
  unfold Dat.leavesExact; rw [live2 t, after0_2]
theorem leaves3 (c : Dev nD) (t : Fin cfg0.N) : (dats m 0 c).leavesExact 3 t = owns (c : Thread nD τ) (ms3 t) fullShare (iblk m c 3 t) := by
  unfold Dat.leavesExact; rw [live3 t, after0_3]
theorem leaves4_last (c : Dev nD) (t : Fin cfg0.N) (h : t.val = 255) :
    (dats m 0 c).leavesExact 4 t = owns (c : Thread nD τ) (ms4 t) fullShare (accAt m c t.val) := by
  unfold Dat.leavesExact; rw [live4 t h, after0_4]

set_option maxHeartbeats 1600000 in
/-- The body at any point: the inputs' buffers hold their blocks; the closed forms say which case the point is in; the
    invariant hands the body the accumulator at what the point before left (at anything, at the first point) and takes
    it back at this point's contents; the result's buffer is handed back untouched until the last point, where it
    receives the accumulator; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [leaves0, leaves1, leaves2, leaves3]
  rw [show (dats m 0 c).owesAt () t.succ = (dats m 0 c).owesAt () t.castSucc from rfl]
  rw [show (dats m 0 c).Φ t.succ = owns (c : Thread nD τ) scM fullShare (accAt m c t.val) from rfl]
  rw [show (dats m 0 c).Φ t.castSucc = PhiS m c t.val from rfl]
  have hN : t.val < 256 := lt_of_lt_of_eq t.isLt N_eq
  by_cases h0 : t.val = 0
  · have hf : condFirst (grid0.coords t) := (hfirst t).mpr h0
    have hl : ¬condLast (grid0.coords t) := fun h => by have := (hlast t).mp h; omega
    have hne : t.val ≠ 255 := by omega
    rw [Dat.leavesExact_idle (dats m 0 c) 4 t (idle4 t hne) (noFlush4 t hne), accAt_zero m c t h0, h0]
    rw [show PhiS m c 0 = iprop(∃ d, owns (c : Thread nD τ) scM fullShare d) from rfl]
    unfold stepAt
    iintro ⟨⟨%dS, HS⟩, Ho, ⟨%d0, H0⟩, ⟨%d1, H1⟩, ⟨%d2, H2⟩, ⟨%d3, H3⟩, H4⟩
    iapply (run_first c Set.univ (grid0.coords t) _ _ _ _ _ _ _ _ _ _ _ _ hf hl (iblk m c 0 t) (iblk m c 1 t) (iblk m c 2 t) (iblk m c 3 t) dS _)
    isplitl [H0]; · iexact H0
    isplitl [H1]; · iexact H1
    isplitl [H2]; · iexact H2
    isplitl [H3]; · iexact H3
    isplitl [HS]; · iexact HS
    iintro ⟨H0, H1, H2, H3, HS⟩
    isplitl [HS]; · iexact HS
    isplitl [Ho]; · iexact Ho
    isplitl [H0]; · iexact H0
    isplitl [H1]; · iexact H1
    isplitl [H2]; · iexact H2
    isplitl [H3]; · iexact H3
    iexact H4
  · have hf : ¬condFirst (grid0.coords t) := fun h => h0 ((hfirst t).mp h)
    rw [PhiS_pos m c _ h0, accAt_pos m c t h0]
    unfold stepAt
    by_cases h1 : t.val = 255
    · have hl : condLast (grid0.coords t) := (hlast t).mpr h1
      rw [leaves4_last m c t h1, accAt_pos m c t h0]
      unfold stepAt
      iintro ⟨HS, Ho, ⟨%d0, H0⟩, ⟨%d1, H1⟩, ⟨%d2, H2⟩, ⟨%d3, H3⟩, ⟨%d4, H4⟩⟩
      iapply (run_last c Set.univ (grid0.coords t) _ _ _ _ _ _ _ _ _ _ _ _ hf hl (iblk m c 0 t) (iblk m c 1 t) (iblk m c 2 t) (iblk m c 3 t) (accAt m c (t.val - 1)) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexact H4
    · have hl : ¬condLast (grid0.coords t) := fun h => h1 ((hlast t).mp h)
      rw [Dat.leavesExact_idle (dats m 0 c) 4 t (idle4 t h1) (noFlush4 t h1)]
      iintro ⟨HS, Ho, ⟨%d0, H0⟩, ⟨%d1, H1⟩, ⟨%d2, H2⟩, ⟨%d3, H3⟩, H4⟩
      iapply (run_mid c Set.univ (grid0.coords t) _ _ _ _ _ _ _ _ _ _ _ _ hf hl (iblk m c 0 t) (iblk m c 1 t) (iblk m c 2 t) (iblk m c 3 t) (accAt m c (t.val - 1)) _)
      isplitl [H0]; · iexact H0
      isplitl [H1]; · iexact H1
      isplitl [H2]; · iexact H2
      isplitl [H3]; · iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KRun.lean ====
/-
  The kernel's program run whole: two reshapes of the labels, the region, then the result read out and divided.

  The run is the pipeline library's theorem for a program given as a list of segments: the host operations before the
  region, the region, the host operations after it. Between segments the core holds its eight unscoped arrays whole
  at a valuation and owes nothing. At the region's entry the points' array — read by two windows — is split into the
  two halves of its share, one per window; the label column, the label row and the result go to their windows whole;
  the other four arrays bypass the region. At the exit the two halves, both still at the entry contents (input
  windows are never written back), are joined again. The accumulator is the region's invariant: at anything before
  the first point, at the fold's value after each point. After the region the result array holds what the last
  point's write-back put there, and the three trailing operations compute the quotient from it.
-/
import proofs.«123170_j7172595385025_1_alg».proof.Proof.KBody

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers and the windows' arrays, one by one -/

omit [FloatOps F] in
/-- Core `c`'s unscoped buffers at contents `W`: the eight arrays of the host program. -/
theorem unscopedBufs_chain (c : Dev nD) (W : (b : Ref sig .tc) → Buf (Elt F) ((c : Thread nD τ).loc b)) :
    (unscopedBufs c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v3) ↦{fullShare} W main_v3)
          ∗ (((c : Thread nD τ).loc main_cst) ↦{fullShare} W main_cst) ∗ (((c : Thread nD τ).loc main_v4) ↦{fullShare} W main_v4)) := by
  unfold unscopedBufs
  exact bigSep_eq_bigSepL_of_eq [main_arg0, main_arg1, main_v0, main_v1, main_v2, main_v3, main_cst, main_v4] (by decide) (by decide) _

/-- The windows' arrays at contents `A`: the points' array twice, at the two halves of its share, then the label
    column, the label row and the result, each whole. -/
theorem arrays_chain (c : Dev nD) (A : (w : Fin cfg0.W) → Buf (Elt F) ((cfg0.win w).arr.view.loc (c : Thread nD τ))) :
    ((dats m 0 c).arrays A : sProp 𝕄)
      = iprop((((c : Thread nD τ).loc main_arg0) ↦{fullShare.left} A 0) ∗ (((c : Thread nD τ).loc main_arg0) ↦{fullShare.right} A 1)
          ∗ (((c : Thread nD τ).loc main_v0) ↦{fullShare} A 2) ∗ (((c : Thread nD τ).loc main_v1) ↦{fullShare} A 3)
          ∗ (((c : Thread nD τ).loc main_v2) ↦{fullShare} A 4)) := by
  unfold Dat.arrays
  rw [bigSep_W0]
  simp only [View.set_whole]
  rfl

/-! ## The contents when the region is left -/

/-- The result's array after the region: what the write-backs left. -/
abbrev outA (c : Dev nD) : Buf (Elt F) ((c : Thread nD τ).loc main_v2) := (dats m 0 c).arrAt 4 cfg0.N

/-- Core `c`'s buffers when the region is left: as entered, but the result's array. -/
def Vx (c : Dev nD) : Valuation τ sig (Elt F) := Function.update (V0 m c) (Proc.devRef .tc main_v2) (outA m c)

theorem Vx_v2 (c : Dev nD) : Vx m c (Proc.devRef .tc main_v2) = outA m c := Function.update_self ..

theorem Vx_ne (c : Dev nD) (b : Ref sig .tc) (h : b ≠ main_v2) : Vx m c (Proc.devRef .tc b) = V m c b :=
  Function.update_of_ne (StableHlo.devRef_ne_of_ne h) ..

/-- Neither line of host operations writes an argument. -/
theorem not_written0 (b : Ref sig .tc) (hb : b ≠ main_v0 ∧ b ≠ main_v1) : ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.reshape_writes, Finset.mem_singleton] <;>
    exact StableHlo.devRef_ne_of_ne ‹_›

theorem not_written1 (b : Ref sig .tc) (hb : b ≠ main_v3 ∧ b ≠ main_cst ∧ b ≠ main_v4) : ∀ op ∈ (hostOps1 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.reshape_writes, StableHlo.nullary_writes, StableHlo.binary_writes, Finset.mem_singleton] <;>
    exact StableHlo.devRef_ne_of_ne ‹_›

/-- What core `c`'s buffers hold at the end: the trailing operations from the exit contents. -/
abbrev Vend (c : Dev nD) : Valuation τ sig (Elt F) := StableHlo.after hostOps1 (Vx m c)

/-- The arguments end as launched. -/
theorem Vend_arg0 (c : Dev nD) : Vend m c (Proc.devRef .tc main_arg0) = m ((c : Thread nD τ).loc main_arg0) :=
  (StableHlo.after_of_forall_not_mem (b := Proc.devRef .tc main_arg0) hostOps1 (Vx m c) (not_written1 main_arg0 (by decide))).trans
    ((Vx_ne m c main_arg0 (by decide)).trans
      (StableHlo.after_of_forall_not_mem (b := Proc.devRef .tc main_arg0) hostOps0 (Vl m c) (not_written0 main_arg0 (by decide))))
theorem Vend_arg1 (c : Dev nD) : Vend m c (Proc.devRef .tc main_arg1) = m ((c : Thread nD τ).loc main_arg1) :=
  (StableHlo.after_of_forall_not_mem (b := Proc.devRef .tc main_arg1) hostOps1 (Vx m c) (not_written1 main_arg1 (by decide))).trans
    ((Vx_ne m c main_arg1 (by decide)).trans
      (StableHlo.after_of_forall_not_mem (b := Proc.devRef .tc main_arg1) hostOps0 (Vl m c) (not_written0 main_arg1 (by decide))))

/-! ## The launch: the program as segments -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)

/-- The two reshapes before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (Vl m) R

/-- The three operations after the region, over the unscoped buffers. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Vx m) R

set_option backward.isDefEq.respectTransparency.types false in
/-- The region: entered from what the reshapes left — the points' array split between its two windows, the labels and
    the result to their windows, the other arrays bypassing —, left with the halves joined and the result's array at
    what the last point wrote back. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (Vx m c) ∗ R c)
  X c := iprop(emp)
  Y c := iprop(emp)
  Z c := iprop((((c : Thread nD τ).loc main_arg1) ↦{fullShare} V m c main_arg1) ∗ (((c : Thread nD τ).loc main_v3) ↦{fullShare} V m c main_v3)
    ∗ (((c : Thread nD τ).loc main_cst) ↦{fullShare} V m c main_cst) ∗ (((c : Thread nD τ).loc main_v4) ↦{fullShare} V m c main_v4))
  hentry c := by
    rw [show StableHlo.held (c : Thread nD τ) (Pipeline.ucRefs τ sig) (V0 m c) = unscopedBufs c (V m c) from (Pipeline.unscopedBufs_held c _).symm,
      unscopedBufs_chain, arrays_chain]
    iintro ⟨⟨⟨H0, H1, Hv0, Hv1, Hv2, Hv3, Hc, Hv4⟩, HO⟩, -, -⟩
    ihave Hs := (pointsTo_share (PosShare.mem_left_op_right fullShare)).1 $$ H0
    icases Hs with ⟨H0l, H0r⟩
    imodintro
    isplitl [H0l H0r Hv0 Hv1 Hv2]
    · isplitl [H0l]; · iexact H0l
      isplitl [H0r]; · iexact H0r
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [H1]; · iexact H1
    isplitl [Hv3]; · iexact Hv3
    isplitl [Hc]; · iexact Hc
    iexact Hv4
  hin c := by
    rw [show (dats m 0 c).Φ 0 = iprop(∃ d, owns (c : Thread nD τ) scM fullShare d) from rfl, scopedRest0_eq]
    iintro ⟨-, -, ⟨%f, Hs⟩⟩
    iexists f; rw [owns_whole]; iexact Hs
  hout c := by
    rw [Pipeline.ownSems0_none, scopedRest0_eq,
      show (dats m 0 c).Φ (Fin.last cfg0.N) = owns (c : Thread nD τ) scM fullShare (accAt m c 255) from rfl, owns_whole]
    iintro H
    isplitr; · iempintro
    isplitr; · iempintro
    iexists _; iexact H
  hexit c := by
    rw [arrays_chain, show StableHlo.held (c : Thread nD τ) (Pipeline.ucRefs τ sig) (Vx m c) = unscopedBufs c (fun b => Vx m c (Proc.devRef .tc b)) from (Pipeline.unscopedBufs_held c _).symm,
      unscopedBufs_chain]
    rw [Vx_ne m c main_arg0 (by decide), Vx_ne m c main_arg1 (by decide), Vx_ne m c main_v0 (by decide), Vx_ne m c main_v1 (by decide),
      Vx_v2, Vx_ne m c main_v3 (by decide), Vx_ne m c main_cst (by decide), Vx_ne m c main_v4 (by decide)]
    rw [(dats m 0 c).arrAt_in 0 rfl, (dats m 0 c).arrAt_in 1 rfl, (dats m 0 c).arrAt_in 2 rfl, (dats m 0 c).arrAt_in 3 rfl]
    iintro ⟨⟨H0l, H0r, Hv0, Hv1, Hv2⟩, HO, -, ⟨H1, Hv3, Hc, Hv4⟩⟩
    ihave H0 := (pointsTo_share (PosShare.mem_left_op_right fullShare)).2 $$ [H0l H0r]
    · isplitl [H0l]; · iexact H0l
      iexact H0r
    imodintro
    isplitr [HO]
    · isplitl [H0]; · iexact H0
      isplitl [H1]; · iexact H1
      isplitl [Hv0]; · iexact Hv0
      isplitl [Hv1]; · iexact Hv1
      isplitl [Hv2]; · iexact Hv2
      isplitl [Hv3]; · iexact Hv3
      isplitl [Hc]; · iexact Hc
      iexact Hv4
    · unfold Pipeline.Dat.owesAt Pipeline.owesWithin
      icases HO with ⟨%W, -, HO⟩; iexists W; iexact HO

/-- The program as the list of the three. -/
abbrev segs : List (Pipeline.Seg (pcfgs (F := F)) adm (dats m) () defs₀ 𝒱₀ L lv) := [.host (seg0 m), .region (reg0 m), .host (seg1 m)]

/-- The pipeline library's algebra is the certificate's. -/
abbrev EP : Emb (UR sig nD τ) (MT nD τ sig Unit (Elt F) ℕ (UR sig nD τ) ℕ) := emb₁

/-- The launch element: the pipeline library's at the staging cells. -/
def u₀ : UR sig nD τ := initOf (Pipeline.cells cfgs cellOf_inj) (Pipeline.launchToks cfgs cellOf_inj)

set_option backward.isDefEq.respectTransparency.types false in
/-- At the compiled mesh, for any float values, from any memory with zero counters: every weakly fair execution of the
    program on the TensorCores terminates, and every final state has the result at what the trailing operations make
    of the region's exit contents, and both arguments unchanged. -/
theorem run_main : θ_run defs (onTc (τ := τ) (main (F := F))) ⟨m, fun _ => 0, ρ⟩ (fun r => ∀ c : Dev nD,
      r.2.mem ((c.tc : Thread nD τ).loc main_v4) = Vend m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => StableHlo.held (c : Thread nD τ) (Pipeline.ucRefs τ sig) (Vend m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, -, -⟩, -⟩
      imodintro
      isplitl [Hh]; · iexact Hh
      iexists ∅; iexact HO)
    (QY := fun c s => s.mem ((c : Thread nD τ).loc main_v4) = Vend m c (Proc.devRef .tc main_v4)
      ∧ s.mem ((c : Thread nD τ).loc main_arg0) = m ((c : Thread nD τ).loc main_arg0)
      ∧ s.mem ((c : Thread nD τ).loc main_arg1) = m ((c : Thread nD τ).loc main_arg1))
    (hfin := fun c s' => by
      rw [show StableHlo.held (c : Thread nD τ) (Pipeline.ucRefs τ sig) (Vend m c) = unscopedBufs c (fun b => Vend m c (Proc.devRef .tc b)) from (Pipeline.unscopedBufs_held c _).symm,
        unscopedBufs_chain, Vend_arg0, Vend_arg1]
      iintro ⟨⟨H0, H1, -, -, -, -, -, H4⟩, HSI⟩
      icombine HSI H0 gives %h0
      icombine HSI H1 gives %h1
      icombine HSI H4 gives %h4
      imodintro
      isplitr; · ipureintro; exact ⟨Buf.eq_of_forall_mem_univ h4, Buf.eq_of_forall_mem_univ h0, Buf.eq_of_forall_mem_univ h1⟩
      iexact HSI)
    (hQ := fun _ h => h)

/-- info: 'Cert.Kernel.Hand.run_main' depends on axioms: [propext, Classical.choice, Quot.sound] -/
#guard_msgs in #print axioms run_main

end Cert.Kernel.Hand

end
-- ==== Proof.KIBlocks.lean ====
/-
  The kernel's region as the pipeline library sees it: what the arrays hold when the region is entered, the block of
  each input window at a grid point, and what the scratch accumulator holds after each point.

  The grid is 16 × 16, walked row-major: point t is tile (t / 16, t % 16). The two windows on the points' array both
  read it — rows 512·(t / 16) … and rows 512·(t % 16) … — so each holds HALF of the array's share and the array is
  never written. The labels reach the kernel as a column and as a row (two reshapes of the label vector). The
  one-element result is stored only at the last point; until then its staging buffer is left as found.

  The accumulator is a one-element scratch: zeroed at the first point, then at every point replaced by itself plus
  the point's tile sum. accAt n is its contents after point n: a left fold of the body's arithmetic from zero.
-/
import proofs.«123170_j7172595385025_1_alg».proof.Proof.Gen.KernelIdeal.Launch
import proofs.«123170_j7172595385025_1_alg».proof.Proof.Gen.KernelIdeal.Skeleton
import proofs.«123170_j7172595385025_1_alg».proof.Proof.Gen.KernelIdeal.Points
import Idealize.ShloMosaic.Lib.Pipeline.FrameBody
import Idealize.ShloMosaic.Lib.Pipeline.FrameSuffix
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered -/

/-- Core `c`'s buffers at launch, as a valuation; -/
abbrev Vl (c : Dev nD) : Valuation τ sig (Elt F) := fun b => m (c, b)
/-- after the two reshapes of the labels, when the region is entered; -/
abbrev V0 (c : Dev nD) : Valuation τ sig (Elt F) := StableHlo.after hostOps0 (Vl m c)
/-- and read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The accumulator, point by point -/

/-- The scratch accumulator, a whole scoped buffer of the kernel's own. -/
abbrev scM : Memref sig .tc .vmem S1x1 .f32 := Memref.whole cc0_scratch0

/-- The accumulator after point `t` when it held `acc` before the point's update: `acc` plus the tile sum, as the
    body computes it from the four input blocks. -/
def stepAt (c : Dev nD) (t : Fin cfg0.N) (acc : Vec F S1x1 .f32) : Vec F S1x1 .f32 :=
  k0_pay1 (BitVec.ofNat 32 ((grid0.coords t) 0).val) (BitVec.ofNat 32 ((grid0.coords t) 1).val)
    (k0_pay3 (iblk m c 0 t) (iblk m c 1 t)) (iblk m c 2 t) (iblk m c 3 t) acc

/-- The same at a number: past the grid nothing happens. -/
def stepN (c : Dev nD) (n : ℕ) (acc : Vec F S1x1 .f32) : Vec F S1x1 .f32 :=
  if h : n < cfg0.N then stepAt m c ⟨n, h⟩ acc else acc

/-- What the accumulator holds after point `n`: zeroed at the first point, then updated at every point. -/
def accAt (c : Dev nD) : ℕ → Vec F S1x1 .f32
  | 0 => stepN m c 0 (k0_pay2 (F := F))
  | n + 1 => stepN m c (n + 1) (accAt c n)

theorem accAt_zero (c : Dev nD) (t : Fin cfg0.N) (h : t.val = 0) : accAt m c t.val = stepAt m c t (k0_pay2 (F := F)) := by
  obtain ⟨n, hn⟩ := t
  subst h
  show stepN m c 0 _ = _
  unfold stepN; rw [dif_pos hn]

theorem accAt_pos (c : Dev nD) (t : Fin cfg0.N) (h : t.val ≠ 0) : accAt m c t.val = stepAt m c t (accAt m c (t.val - 1)) := by
  obtain ⟨n, hn⟩ := t
  cases n with
  | zero => exact absurd rfl h
  | succ n =>
    show stepN m c (n + 1) (accAt m c n) = _
    unfold stepN; rw [dif_pos hn]; rfl

/-! ## The region's invariant -/

/-- Before the first point the accumulator holds anything; after point `n` it holds `accAt n`. -/
def PhiS (c : Dev nD) : ℕ → sProp 𝕄
  | 0 => iprop(∃ d, owns (c : Thread nD τ) scM fullShare d)
  | n + 1 => owns (c : Thread nD τ) scM fullShare (accAt m c n)

theorem PhiS_pos (c : Dev nD) (n : ℕ) (hz : n ≠ 0) : PhiS m c n = owns (c : Thread nD τ) scM fullShare (accAt m c (n - 1)) := by
  cases n with
  | zero => exact absurd rfl hz
  | succ n => rfl

/-! ## The proof data -/

/-- The proof data on core `c`: the arrays as the region finds them; after the body each input's buffer at its block
    and, at the last point, the result's at the accumulator; the invariant the accumulator's contents; the points'
    array shared in halves between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val
  Φ t := PhiS m c t.val
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = accAt m c t.val := by dsimp only [dats]

/-- Each input's current staging buffer holds its block at every point, fetched there or not: where it is not fetched
    its block index has not moved, and the body leaves the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body's two branch conditions, in closed form -/

/-- The zeroing's condition (both coordinates zero), as the body computes it from the coordinates; -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- it holds at the first point only. -/
theorem hfirst : ∀ t : Fin cfg0.N, condFirst (grid0.coords t) ↔ t.val = 0 :=
  (by decide +kernel : ∀ t : Fin grid0.N, condFirst (grid0.coords t) ↔ t.val = 0)

/-- The result store's condition (both coordinates at their last value); -/
abbrev condLast (i : grid0.Coords) : Prop := k0_cond2 i = 1#1
/-- it holds at the last point only. -/
theorem hlast : ∀ t : Fin cfg0.N, condLast (grid0.coords t) ↔ t.val = 255 :=
  (by decide +kernel : ∀ t : Fin grid0.N, condLast (grid0.coords t) ↔ t.val = 255)

/-- The inputs are never idle; the result's window is idle at every point but the last, and written back at the last
    only. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, t.val ≠ 255 → cfg0.idle 4 (grid0.coords t) = true := by decide +kernel
theorem live4 : ∀ t : Fin cfg0.N, t.val = 255 → cfg0.idle 4 (grid0.coords t) = false := by decide +kernel
theorem noFlush4 : ∀ t : Fin cfg0.N, t.val ≠ 255 → (cfg0.win 4).flush t = false := by decide +kernel

/-- The grid has 256 points. -/
theorem N_eq : cfg0.N = 256 := N_0

end Cert.KernelIdeal.Hand

end
-- ==== Proof.KIBody.lean ====
import proofs.«123170_j7172595385025_1_alg».proof.Proof.KIBlocks

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through a whole block

Every access of the body goes through the unit-stride rectangle of its memref's own sizes at zero offsets: all of the
block. Such a load reads what the memref holds, and after such a store the memref holds the value stored. -/

theorem unit_emb {a b : Nat} (h : ∀ d, (![0, 0] : Fin 2 → Nat) d + (![a, b] : Fin 2 → Nat) d ≤ (⟨2, ![a, b]⟩ : Shape).size d)
    (x : (⟨2, ![a, b]⟩ : Shape).Idx) : (Rect.unit (s := ⟨2, ![a, b]⟩) ![0, 0] ![a, b] h).emb x = x := by
  funext d; apply Fin.ext; rw [Rect.emb_apply]
  fin_cases d
  · show 0 + 1 * (x 0).val = (x 0).val; omega
  · show 0 + 1 * (x 1).val = (x 1).val; omega

omit [FloatOps F] in
theorem read_all {a b : Nat} {e : EltTy} (c : Dev nD) (M : Memref sig .tc .vmem ⟨2, ![a, b]⟩ e)
    (h : ∀ d, (![0, 0] : Fin 2 → Nat) d + (![a, b] : Fin 2 → Nat) d ≤ (⟨2, ![a, b]⟩ : Shape).size d)
    (g : Buf (Elt F) (M.view.loc (c : Thread nD τ))) :
    (M.access (Rect.unit (s := ⟨2, ![a, b]⟩) ![0, 0] ![a, b] h)).read (Elt F) g = M.view.read (Elt F) g := by
  funext x
  show _root_.cast _ (g (M.view.emb ((Rect.unit (s := ⟨2, ![a, b]⟩) ![0, 0] ![a, b] h).emb x))) = _root_.cast _ (g (M.view.emb x))
  rw [unit_emb]

omit [FloatOps F] in
theorem read_write_all {a b : Nat} {e : EltTy} (c : Dev nD) (M : Memref sig .tc .vmem ⟨2, ![a, b]⟩ e)
    (h : ∀ d, (![0, 0] : Fin 2 → Nat) d + (![a, b] : Fin 2 → Nat) d ≤ (⟨2, ![a, b]⟩ : Shape).size d)
    (f : Buf (Elt F) (M.view.loc (c : Thread nD τ))) (v : (⟨2, ![a, b]⟩ : Shape).Idx → Elt F e) :
    M.view.read (Elt F) ((M.access (Rect.unit (s := ⟨2, ![a, b]⟩) ![0, 0] ![a, b] h)).write (Elt F) f v Finset.univ) = v := by
  funext y
  conv_lhs => rw [← unit_emb h y]
  rw [View.read_slice_write_emb _ _ _ (Finset.mem_univ _)]

/-- The whole-block rectangles of the body's four block shapes, as the program writes them. -/
abbrev rX : Rect S512x256 := Rect.unit (s := S512x256) ![0, 0] S512x256.size inb_S512x256_S512x256_0_0
abbrev rC : Rect S512x1 := Rect.unit (s := S512x1) ![0, 0] S512x1.size inb_S512x1_S512x1_0_0
abbrev rR : Rect S1x512 := Rect.unit (s := S1x512) ![0, 0] S1x512.size inb_S1x512_S1x512_0_0
abbrev rA : Rect S1x1 := Rect.unit (s := S1x1) ![0, 0] S1x1.size inb_S1x1_S1x1_0_0

/-! ## The body on any whole staging memrefs, case by case

The body loads the four input blocks and the accumulator and stores the accumulator's update; at the first point it
zeroes the accumulator before that, at the last it copies the accumulator into the result's buffer after it. The
buffers it does not store into come back as they were. -/

/-- A point that is neither the first nor the last: the accumulator goes from `acc` to its update; the result's buffer
    is not touched (it is not even named here). -/
theorem run_mid (c : Dev nD) (E : Set ℕ) (i : grid0.Coords)
    (arg2 : Memref sig .tc .vmem S512x256 .f32) (harg2 : arg2.IsWhole) (arg3 : Memref sig .tc .vmem S512x256 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole)
    (hf : ¬condFirst i) (hl : ¬condLast i)
    (x0 x1 : Vec F S512x256 .f32) (l0 : Vec F S512x1 .i32) (l1 : Vec F S1x512 .i32) (acc : Vec F S1x1 .f32) (K : PUnit → sProp 𝕄) :
    iprop(owns (c : Thread nD τ) arg2 fullShare x0 ∗ owns (c : Thread nD τ) arg3 fullShare x1 ∗ owns (c : Thread nD τ) arg4 fullShare l0
        ∗ owns (c : Thread nD τ) arg5 fullShare l1 ∗ owns (c : Thread nD τ) arg7 fullShare acc
        ∗ (iprop(owns (c : Thread nD τ) arg2 fullShare x0 ∗ owns (c : Thread nD τ) arg3 fullShare x1 ∗ owns (c : Thread nD τ) arg4 fullShare l0
            ∗ owns (c : Thread nD τ) arg5 fullShare l1
            ∗ owns (c : Thread nD τ) arg7 fullShare (k0_pay1 (BitVec.ofNat 32 (i 0).val) (BitVec.ofNat 32 (i 1).val) (k0_pay3 x0 x1) l0 l1 acc)) -∗ K ⟨⟩))
      ⊢ wp frame (wpE (defs₀ (F := F)) Variants.none c none) E (cc0__contrastive_kernel i arg2 harg2 arg3 harg3 arg4 harg4 arg5 harg5 arg6 harg6 arg7 harg7) K := by
  simp only [cc0__contrastive_kernel_eq_skeleton]; unfold cc0__contrastive_kernel_skel
  simp only [k0_part1_eq_skeleton]; unfold k0_part1_skel
  simp only [Prog.lift, Prog.bind_op, Prog.bind_ret, Prog.bind_assoc, Prog.pure_eq_ret, dif_neg hf, dif_neg hl]
  unfold owns
  iintro ⟨⟨%f2, %hf2, H2⟩, ⟨%f3, %hf3, H3⟩, ⟨%f4, %hf4, H4⟩, ⟨%f5, %hf5, H5⟩, ⟨%f7, %hf7, H7⟩, Hk⟩
  iapply (wp_load_rect Variants.none (c : Thread nD τ) none E (m := arg2) (r := rX) (View.set_slice_subset _ _)) $$ H2
  iintro H2
  iapply (wp_load_rect Variants.none (c : Thread nD τ) none E (m := arg3) (r := rX) (View.set_slice_subset _ _)) $$ H3
  iintro H3
  iapply (wp_load_rect Variants.none (c : Thread nD τ) none E (m := arg4) (r := rC) (View.set_slice_subset _ _)) $$ H4
  iintro H4
  iapply (wp_load_rect Variants.none (c : Thread nD τ) none E (m := arg5) (r := rR) (View.set_slice_subset _ _)) $$ H5
  iintro H5
  iapply (wp_load_rect Variants.none (c : Thread nD τ) none E (m := arg7) (r := rA) (View.set_slice_subset _ _)) $$ H7
  iintro H7
  iapply (wp_load_rect Variants.none (c : Thread nD τ) none E (m := arg7) (r := rA) (View.set_slice_subset _ _)) $$ H7
  iintro H7
  iapply (wp_store Variants.none (c : Thread nD τ) none E (m := arg7) (r := rA) (Mk := Finset.univ) (View.set_slice_subset _ _)) $$ H7
  iintro H7
  rw [wp_ret]; imodintro
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  iexists _; isplitr
  swap; · iexact H7
  ipureintro
  rw [read_write_all, read_all, read_all, read_all, read_all, read_all, hf2, hf3, hf4, hf5, hf7]

/-- The first point: the accumulator, whatever it held, is zeroed and then updated. -/
theorem run_first (c : Dev nD) (E : Set ℕ) (i : grid0.Coords)
    (arg2 : Memref sig .tc .vmem S512x256 .f32) (harg2 : arg2.IsWhole) (arg3 : Memref sig .tc .vmem S512x256 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole)
    (hf : condFirst i) (hl : ¬condLast i)
    (x0 x1 : Vec F S512x256 .f32) (l0 : Vec F S512x1 .i32) (l1 : Vec F S1x512 .i32) (acc : Vec F S1x1 .f32) (K : PUnit → sProp 𝕄) :
    iprop(owns (c : Thread nD τ) arg2 fullShare x0 ∗ owns (c : Thread nD τ) arg3 fullShare x1 ∗ owns (c : Thread nD τ) arg4 fullShare l0
        ∗ owns (c : Thread nD τ) arg5 fullShare l1 ∗ owns (c : Thread nD τ) arg7 fullShare acc
        ∗ (iprop(owns (c : Thread nD τ) arg2 fullShare x0 ∗ owns (c : Thread nD τ) arg3 fullShare x1 ∗ owns (c : Thread nD τ) arg4 fullShare l0
            ∗ owns (c : Thread nD τ) arg5 fullShare l1
            ∗ owns (c : Thread nD τ) arg7 fullShare (k0_pay1 (BitVec.ofNat 32 (i 0).val) (BitVec.ofNat 32 (i 1).val) (k0_pay3 x0 x1) l0 l1 (k0_pay2 (F := F)))) -∗ K ⟨⟩))
      ⊢ wp frame (wpE (defs₀ (F := F)) Variants.none c none) E (cc0__contrastive_kernel i arg2 harg2 arg3 harg3 arg4 harg4 arg5 harg5 arg6 harg6 arg7 harg7) K := by
  simp only [cc0__contrastive_kernel_eq_skeleton]; unfold cc0__contrastive_kernel_skel
  simp only [k0_part1_eq_skeleton]; unfold k0_part1_skel
  simp only [Prog.lift, Prog.bind_op, Prog.bind_ret, Prog.bind_assoc, Prog.pure_eq_ret, dif_pos hf, dif_neg hl]
  unfold owns
  iintro ⟨⟨%f2, %hf2, H2⟩, ⟨%f3, %hf3, H3⟩, ⟨%f4, %hf4, H4⟩, ⟨%f5, %hf5, H5⟩, ⟨%f7, %hf7, H7⟩, Hk⟩
  iapply (wp_load_rect Variants.none (c : Thread nD τ) none E (m := arg7) (r := rA) (View.set_slice_subset _ _)) $$ H7
  iintro H7
  iapply (wp_store Variants.none (c : Thread nD τ) none E (m := arg7) (r := rA) (Mk := Finset.univ) (View.set_slice_subset _ _)) $$ H7
  iintro H7
  iapply (wp_load_rect Variants.none (c : Thread nD τ) none E (m := arg2) (r := rX) (View.set_slice_subset _ _)) $$ H2
  iintro H2
  iapply (wp_load_rect Variants.none (c : Thread nD τ) none E (m := arg3) (r := rX) (View.set_slice_subset _ _)) $$ H3
  iintro H3
  iapply (wp_load_rect Variants.none (c : Thread nD τ) none E (m := arg4) (r := rC) (View.set_slice_subset _ _)) $$ H4
  iintro H4
  iapply (wp_load_rect Variants.none (c : Thread nD τ) none E (m := arg5) (r := rR) (View.set_slice_subset _ _)) $$ H5
  iintro H5
  iapply (wp_load_rect Variants.none (c : Thread nD τ) none E (m := arg7) (r := rA) (View.set_slice_subset _ _)) $$ H7
  iintro H7
  iapply (wp_load_rect Variants.none (c : Thread nD τ) none E (m := arg7) (r := rA) (View.set_slice_subset _ _)) $$ H7
  iintro H7
  iapply (wp_store Variants.none (c : Thread nD τ) none E (m := arg7) (r := rA) (Mk := Finset.univ) (View.set_slice_subset _ _)) $$ H7
  iintro H7
  rw [wp_ret]; imodintro
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  iexists _; isplitr
  swap; · iexact H7
  ipureintro
  rw [read_write_all, read_all, read_all, read_all, read_all, read_all, read_write_all, hf2, hf3, hf4, hf5]

/-- The last point: the accumulator is updated, and the result's buffer, whatever it held, receives the update. -/
theorem run_last (c : Dev nD) (E : Set ℕ) (i : grid0.Coords)
    (arg2 : Memref sig .tc .vmem S512x256 .f32) (harg2 : arg2.IsWhole) (arg3 : Memref sig .tc .vmem S512x256 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (arg7 : Memref sig .tc .vmem S1x1 .f32) (harg7 : arg7.IsWhole)
    (hf : ¬condFirst i) (hl : condLast i)
    (x0 x1 : Vec F S512x256 .f32) (l0 : Vec F S512x1 .i32) (l1 : Vec F S1x512 .i32) (acc o : Vec F S1x1 .f32) (K : PUnit → sProp 𝕄) :
    iprop(owns (c : Thread nD τ) arg2 fullShare x0 ∗ owns (c : Thread nD τ) arg3 fullShare x1 ∗ owns (c : Thread nD τ) arg4 fullShare l0
        ∗ owns (c : Thread nD τ) arg5 fullShare l1 ∗ owns (c : Thread nD τ) arg6 fullShare o ∗ owns (c : Thread nD τ) arg7 fullShare acc
        ∗ (iprop(owns (c : Thread nD τ) arg2 fullShare x0 ∗ owns (c : Thread nD τ) arg3 fullShare x1 ∗ owns (c : Thread nD τ) arg4 fullShare l0
            ∗ owns (c : Thread nD τ) arg5 fullShare l1
            ∗ owns (c : Thread nD τ) arg6 fullShare (k0_pay1 (BitVec.ofNat 32 (i 0).val) (BitVec.ofNat 32 (i 1).val) (k0_pay3 x0 x1) l0 l1 acc)
            ∗ owns (c : Thread nD τ) arg7 fullShare (k0_pay1 (BitVec.ofNat 32 (i 0).val) (BitVec.ofNat 32 (i 1).val) (k0_pay3 x0 x1) l0 l1 acc)) -∗ K ⟨⟩))
      ⊢ wp frame (wpE (defs₀ (F := F)) Variants.none c none) E (cc0__contrastive_kernel i arg2 harg2 arg3 harg3 arg4 harg4 arg5 harg5 arg6 harg6 arg7 harg7) K := by
  simp only [cc0__contrastive_kernel_eq_skeleton]; unfold cc0__contrastive_kernel_skel
  simp only [k0_part1_eq_skeleton]; unfold k0_part1_skel
  simp only [Prog.lift, Prog.bind_op, Prog.bind_ret, Prog.bind_assoc, Prog.pure_eq_ret, dif_neg hf, dif_pos hl]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  iapply (wp_load_rect Variants.none (c : Thread nD τ) none E (m := arg2) (r := rX) (View.set_slice_subset _ _)) $$ H2
  iintro H2
  iapply (wp_load_rect Variants.none (c : Thread nD τ) none E (m := arg3) (r := rX) (View.set_slice_subset _ _)) $$ H3
  iintro H3
  iapply (wp_load_rect Variants.none (c : Thread nD τ) none E (m := arg4) (r := rC) (View.set_slice_subset _ _)) $$ H4
  iintro H4
  iapply (wp_load_rect Variants.none (c : Thread nD τ) none E (m := arg5) (r := rR) (View.set_slice_subset _ _)) $$ H5
  iintro H5
  iapply (wp_load_rect Variants.none (c : Thread nD τ) none E (m := arg7) (r := rA) (View.set_slice_subset _ _)) $$ H7
  iintro H7
  iapply (wp_load_rect Variants.none (c : Thread nD τ) none E (m := arg7) (r := rA) (View.set_slice_subset _ _)) $$ H7
  iintro H7
  iapply (wp_store Variants.none (c : Thread nD τ) none E (m := arg7) (r := rA) (Mk := Finset.univ) (View.set_slice_subset _ _)) $$ H7
  iintro H7
  iapply (wp_load_rect Variants.none (c : Thread nD τ) none E (m := arg7) (r := rA) (View.set_slice_subset _ _)) $$ H7
  iintro H7
  iapply (wp_load_rect Variants.none (c : Thread nD τ) none E (m := arg6) (r := rA) (View.set_slice_subset _ _)) $$ H6
  iintro H6
  iapply (wp_store Variants.none (c : Thread nD τ) none E (m := arg6) (r := rA) (Mk := Finset.univ) (View.set_slice_subset _ _)) $$ H6
  iintro H6
  rw [wp_ret]; imodintro
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    rw [read_write_all, read_all, read_write_all, read_all, read_all, read_all, read_all, read_all, hf2, hf3, hf4, hf5, hf7]
  iexists _; isplitr
  swap; · iexact H7
  ipureintro
  rw [read_write_all, read_all, read_all, read_all, read_all, read_all, hf2, hf3, hf4, hf5, hf7]

/-! ## The body obligation at a generic point -/

variable (m : (ℓ : Loc nD τ sig) → Buf (Elt F) ℓ)

/-- The current staging memref of each window at point `t`, spelled as the pipeline passes it. -/
abbrev ms0 (t : Fin cfg0.N) : Memref sig .tc .vmem S512x256 .f32 := win0_0.stage (cfg0.slots t 0)
abbrev ms1 (t : Fin cfg0.N) : Memref sig .tc .vmem S512x256 .f32 := win0_1.stage (cfg0.slots t 1)
abbrev ms2 (t : Fin cfg0.N) : Memref sig .tc .vmem S512x1 .i32 := win0_2.stage (cfg0.slots t 2)
abbrev ms3 (t : Fin cfg0.N) : Memref sig .tc .vmem S1x512 .i32 := win0_3.stage (cfg0.slots t 3)
abbrev ms4 (t : Fin cfg0.N) : Memref sig .tc .vmem S1x1 .f32 := win0_4.stage (cfg0.slots t 4)

/-- What the body is called with at point `t`: the invariant, the core owing nothing, every window's current buffer at
    what it then holds; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0_0]
theorem leaves1 (c : Dev nD) (t : Fin cfg0.N) : (dats m 0 c).leavesExact 1 t = owns (c : Thread nD τ) (ms1 t) fullShare (iblk m c 1 t) := by
  unfold Dat.leavesExact; rw [live1 t, after0_1]
theorem leaves2 (c : Dev nD) (t : Fin cfg0.N) : (dats m 0 c).leavesExact 2 t = owns (c : Thread nD τ) (ms2 t) fullShare (iblk m c 2 t) := by
  unfold Dat.leavesExact; rw [live2 t, after0_2]
theorem leaves3 (c : Dev nD) (t : Fin cfg0.N) : (dats m 0 c).leavesExact 3 t = owns (c : Thread nD τ) (ms3 t) fullShare (iblk m c 3 t) := by
  unfold Dat.leavesExact; rw [live3 t, after0_3]
theorem leaves4_last (c : Dev nD) (t : Fin cfg0.N) (h : t.val = 255) :
    (dats m 0 c).leavesExact 4 t = owns (c : Thread nD τ) (ms4 t) fullShare (accAt m c t.val) := by
  unfold Dat.leavesExact; rw [live4 t h, after0_4]

set_option maxHeartbeats 1600000 in
/-- The body at any point: the inputs' buffers hold their blocks; the closed forms say which case the point is in; the
    invariant hands the body the accumulator at what the point before left (at anything, at the first point) and takes
    it back at this point's contents; the result's buffer is handed back untouched until the last point, where it
    receives the accumulator; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [leaves0, leaves1, leaves2, leaves3]
  rw [show (dats m 0 c).owesAt () t.succ = (dats m 0 c).owesAt () t.castSucc from rfl]
  rw [show (dats m 0 c).Φ t.succ = owns (c : Thread nD τ) scM fullShare (accAt m c t.val) from rfl]
  rw [show (dats m 0 c).Φ t.castSucc = PhiS m c t.val from rfl]
  have hN : t.val < 256 := lt_of_lt_of_eq t.isLt N_eq
  by_cases h0 : t.val = 0
  · have hf : condFirst (grid0.coords t) := (hfirst t).mpr h0
    have hl : ¬condLast (grid0.coords t) := fun h => by have := (hlast t).mp h; omega
    have hne : t.val ≠ 255 := by omega
    rw [Dat.leavesExact_idle (dats m 0 c) 4 t (idle4 t hne) (noFlush4 t hne), accAt_zero m c t h0, h0]
    rw [show PhiS m c 0 = iprop(∃ d, owns (c : Thread nD τ) scM fullShare d) from rfl]
    unfold stepAt
    iintro ⟨⟨%dS, HS⟩, Ho, ⟨%d0, H0⟩, ⟨%d1, H1⟩, ⟨%d2, H2⟩, ⟨%d3, H3⟩, H4⟩
    iapply (run_first c Set.univ (grid0.coords t) _ _ _ _ _ _ _ _ _ _ _ _ hf hl (iblk m c 0 t) (iblk m c 1 t) (iblk m c 2 t) (iblk m c 3 t) dS _)
    isplitl [H0]; · iexact H0
    isplitl [H1]; · iexact H1
    isplitl [H2]; · iexact H2
    isplitl [H3]; · iexact H3
    isplitl [HS]; · iexact HS
    iintro ⟨H0, H1, H2, H3, HS⟩
    isplitl [HS]; · iexact HS
    isplitl [Ho]; · iexact Ho
    isplitl [H0]; · iexact H0
    isplitl [H1]; · iexact H1
    isplitl [H2]; · iexact H2
    isplitl [H3]; · iexact H3
    iexact H4
  · have hf : ¬condFirst (grid0.coords t) := fun h => h0 ((hfirst t).mp h)
    rw [PhiS_pos m c _ h0, accAt_pos m c t h0]
    unfold stepAt
    by_cases h1 : t.val = 255
    · have hl : condLast (grid0.coords t) := (hlast t).mpr h1
      rw [leaves4_last m c t h1, accAt_pos m c t h0]
      unfold stepAt
      iintro ⟨HS, Ho, ⟨%d0, H0⟩, ⟨%d1, H1⟩, ⟨%d2, H2⟩, ⟨%d3, H3⟩, ⟨%d4, H4⟩⟩
      iapply (run_last c Set.univ (grid0.coords t) _ _ _ _ _ _ _ _ _ _ _ _ hf hl (iblk m c 0 t) (iblk m c 1 t) (iblk m c 2 t) (iblk m c 3 t) (accAt m c (t.val - 1)) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexact H4
    · have hl : ¬condLast (grid0.coords t) := fun h => h1 ((hlast t).mp h)
      rw [Dat.leavesExact_idle (dats m 0 c) 4 t (idle4 t h1) (noFlush4 t h1)]
      iintro ⟨HS, Ho, ⟨%d0, H0⟩, ⟨%d1, H1⟩, ⟨%d2, H2⟩, ⟨%d3, H3⟩, H4⟩
      iapply (run_mid c Set.univ (grid0.coords t) _ _ _ _ _ _ _ _ _ _ _ _ hf hl (iblk m c 0 t) (iblk m c 1 t) (iblk m c 2 t) (iblk m c 3 t) (accAt m c (t.val - 1)) _)
      isplitl [H0]; · iexact H0
      isplitl [H1]; · iexact H1
      isplitl [H2]; · iexact H2
      isplitl [H3]; · iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIRun.lean ====
/-
  The kernel's program run whole: two reshapes of the labels, the region, then the result read out and divided.

  The run is the pipeline library's theorem for a program given as a list of segments: the host operations before the
  region, the region, the host operations after it. Between segments the core holds its eight unscoped arrays whole
  at a valuation and owes nothing. At the region's entry the points' array — read by two windows — is split into the
  two halves of its share, one per window; the label column, the label row and the result go to their windows whole;
  the other four arrays bypass the region. At the exit the two halves, both still at the entry contents (input
  windows are never written back), are joined again. The accumulator is the region's invariant: at anything before
  the first point, at the fold's value after each point. After the region the result array holds what the last
  point's write-back put there, and the three trailing operations compute the quotient from it.
-/
import proofs.«123170_j7172595385025_1_alg».proof.Proof.KIBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers and the windows' arrays, one by one -/

omit [FloatOps F] in
/-- Core `c`'s unscoped buffers at contents `W`: the eight arrays of the host program. -/
theorem unscopedBufs_chain (c : Dev nD) (W : (b : Ref sig .tc) → Buf (Elt F) ((c : Thread nD τ).loc b)) :
    (unscopedBufs c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v3) ↦{fullShare} W main_v3)
          ∗ (((c : Thread nD τ).loc main_cst) ↦{fullShare} W main_cst) ∗ (((c : Thread nD τ).loc main_v4) ↦{fullShare} W main_v4)) := by
  unfold unscopedBufs
  exact bigSep_eq_bigSepL_of_eq [main_arg0, main_arg1, main_v0, main_v1, main_v2, main_v3, main_cst, main_v4] (by decide) (by decide) _

/-- The windows' arrays at contents `A`: the points' array twice, at the two halves of its share, then the label
    column, the label row and the result, each whole. -/
theorem arrays_chain (c : Dev nD) (A : (w : Fin cfg0.W) → Buf (Elt F) ((cfg0.win w).arr.view.loc (c : Thread nD τ))) :
    ((dats m 0 c).arrays A : sProp 𝕄)
      = iprop((((c : Thread nD τ).loc main_arg0) ↦{fullShare.left} A 0) ∗ (((c : Thread nD τ).loc main_arg0) ↦{fullShare.right} A 1)
          ∗ (((c : Thread nD τ).loc main_v0) ↦{fullShare} A 2) ∗ (((c : Thread nD τ).loc main_v1) ↦{fullShare} A 3)
          ∗ (((c : Thread nD τ).loc main_v2) ↦{fullShare} A 4)) := by
  unfold Dat.arrays
  rw [bigSep_W0]
  simp only [View.set_whole]
  rfl

/-! ## The contents when the region is left -/

/-- The result's array after the region: what the write-backs left. -/
abbrev outA (c : Dev nD) : Buf (Elt F) ((c : Thread nD τ).loc main_v2) := (dats m 0 c).arrAt 4 cfg0.N

/-- Core `c`'s buffers when the region is left: as entered, but the result's array. -/
def Vx (c : Dev nD) : Valuation τ sig (Elt F) := Function.update (V0 m c) (Proc.devRef .tc main_v2) (outA m c)

theorem Vx_v2 (c : Dev nD) : Vx m c (Proc.devRef .tc main_v2) = outA m c := Function.update_self ..

theorem Vx_ne (c : Dev nD) (b : Ref sig .tc) (h : b ≠ main_v2) : Vx m c (Proc.devRef .tc b) = V m c b :=
  Function.update_of_ne (StableHlo.devRef_ne_of_ne h) ..

/-- Neither line of host operations writes an argument. -/
theorem not_written0 (b : Ref sig .tc) (hb : b ≠ main_v0 ∧ b ≠ main_v1) : ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.reshape_writes, Finset.mem_singleton] <;>
    exact StableHlo.devRef_ne_of_ne ‹_›

theorem not_written1 (b : Ref sig .tc) (hb : b ≠ main_v3 ∧ b ≠ main_cst ∧ b ≠ main_v4) : ∀ op ∈ (hostOps1 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.reshape_writes, StableHlo.nullary_writes, StableHlo.binary_writes, Finset.mem_singleton] <;>
    exact StableHlo.devRef_ne_of_ne ‹_›

/-- What core `c`'s buffers hold at the end: the trailing operations from the exit contents. -/
abbrev Vend (c : Dev nD) : Valuation τ sig (Elt F) := StableHlo.after hostOps1 (Vx m c)

/-- The arguments end as launched. -/
theorem Vend_arg0 (c : Dev nD) : Vend m c (Proc.devRef .tc main_arg0) = m ((c : Thread nD τ).loc main_arg0) :=
  (StableHlo.after_of_forall_not_mem (b := Proc.devRef .tc main_arg0) hostOps1 (Vx m c) (not_written1 main_arg0 (by decide))).trans
    ((Vx_ne m c main_arg0 (by decide)).trans
      (StableHlo.after_of_forall_not_mem (b := Proc.devRef .tc main_arg0) hostOps0 (Vl m c) (not_written0 main_arg0 (by decide))))
theorem Vend_arg1 (c : Dev nD) : Vend m c (Proc.devRef .tc main_arg1) = m ((c : Thread nD τ).loc main_arg1) :=
  (StableHlo.after_of_forall_not_mem (b := Proc.devRef .tc main_arg1) hostOps1 (Vx m c) (not_written1 main_arg1 (by decide))).trans
    ((Vx_ne m c main_arg1 (by decide)).trans
      (StableHlo.after_of_forall_not_mem (b := Proc.devRef .tc main_arg1) hostOps0 (Vl m c) (not_written0 main_arg1 (by decide))))

/-! ## The launch: the program as segments -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)

/-- The two reshapes before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (Vl m) R

/-- The three operations after the region, over the unscoped buffers. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Vx m) R

set_option backward.isDefEq.respectTransparency.types false in
/-- The region: entered from what the reshapes left — the points' array split between its two windows, the labels and
    the result to their windows, the other arrays bypassing —, left with the halves joined and the result's array at
    what the last point wrote back. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (Vx m c) ∗ R c)
  X c := iprop(emp)
  Y c := iprop(emp)
  Z c := iprop((((c : Thread nD τ).loc main_arg1) ↦{fullShare} V m c main_arg1) ∗ (((c : Thread nD τ).loc main_v3) ↦{fullShare} V m c main_v3)
    ∗ (((c : Thread nD τ).loc main_cst) ↦{fullShare} V m c main_cst) ∗ (((c : Thread nD τ).loc main_v4) ↦{fullShare} V m c main_v4))
  hentry c := by
    rw [show StableHlo.held (c : Thread nD τ) (Pipeline.ucRefs τ sig) (V0 m c) = unscopedBufs c (V m c) from (Pipeline.unscopedBufs_held c _).symm,
      unscopedBufs_chain, arrays_chain]
    iintro ⟨⟨⟨H0, H1, Hv0, Hv1, Hv2, Hv3, Hc, Hv4⟩, HO⟩, -, -⟩
    ihave Hs := (pointsTo_share (PosShare.mem_left_op_right fullShare)).1 $$ H0
    icases Hs with ⟨H0l, H0r⟩
    imodintro
    isplitl [H0l H0r Hv0 Hv1 Hv2]
    · isplitl [H0l]; · iexact H0l
      isplitl [H0r]; · iexact H0r
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [H1]; · iexact H1
    isplitl [Hv3]; · iexact Hv3
    isplitl [Hc]; · iexact Hc
    iexact Hv4
  hin c := by
    rw [show (dats m 0 c).Φ 0 = iprop(∃ d, owns (c : Thread nD τ) scM fullShare d) from rfl, scopedRest0_eq]
    iintro ⟨-, -, ⟨%f, Hs⟩⟩
    iexists f; rw [owns_whole]; iexact Hs
  hout c := by
    rw [Pipeline.ownSems0_none, scopedRest0_eq,
      show (dats m 0 c).Φ (Fin.last cfg0.N) = owns (c : Thread nD τ) scM fullShare (accAt m c 255) from rfl, owns_whole]
    iintro H
    isplitr; · iempintro
    isplitr; · iempintro
    iexists _; iexact H
  hexit c := by
    rw [arrays_chain, show StableHlo.held (c : Thread nD τ) (Pipeline.ucRefs τ sig) (Vx m c) = unscopedBufs c (fun b => Vx m c (Proc.devRef .tc b)) from (Pipeline.unscopedBufs_held c _).symm,
      unscopedBufs_chain]
    rw [Vx_ne m c main_arg0 (by decide), Vx_ne m c main_arg1 (by decide), Vx_ne m c main_v0 (by decide), Vx_ne m c main_v1 (by decide),
      Vx_v2, Vx_ne m c main_v3 (by decide), Vx_ne m c main_cst (by decide), Vx_ne m c main_v4 (by decide)]
    rw [(dats m 0 c).arrAt_in 0 rfl, (dats m 0 c).arrAt_in 1 rfl, (dats m 0 c).arrAt_in 2 rfl, (dats m 0 c).arrAt_in 3 rfl]
    iintro ⟨⟨H0l, H0r, Hv0, Hv1, Hv2⟩, HO, -, ⟨H1, Hv3, Hc, Hv4⟩⟩
    ihave H0 := (pointsTo_share (PosShare.mem_left_op_right fullShare)).2 $$ [H0l H0r]
    · isplitl [H0l]; · iexact H0l
      iexact H0r
    imodintro
    isplitr [HO]
    · isplitl [H0]; · iexact H0
      isplitl [H1]; · iexact H1
      isplitl [Hv0]; · iexact Hv0
      isplitl [Hv1]; · iexact Hv1
      isplitl [Hv2]; · iexact Hv2
      isplitl [Hv3]; · iexact Hv3
      isplitl [Hc]; · iexact Hc
      iexact Hv4
    · unfold Pipeline.Dat.owesAt Pipeline.owesWithin
      icases HO with ⟨%W, -, HO⟩; iexists W; iexact HO

/-- The program as the list of the three. -/
abbrev segs : List (Pipeline.Seg (pcfgs (F := F)) adm (dats m) () defs₀ 𝒱₀ L lv) := [.host (seg0 m), .region (reg0 m), .host (seg1 m)]

/-- The pipeline library's algebra is the certificate's. -/
abbrev EP : Emb (UR sig nD τ) (MT nD τ sig Unit (Elt F) ℕ (UR sig nD τ) ℕ) := emb₁

/-- The launch element: the pipeline library's at the staging cells. -/
def u₀ : UR sig nD τ := initOf (Pipeline.cells cfgs cellOf_inj) (Pipeline.launchToks cfgs cellOf_inj)

set_option backward.isDefEq.respectTransparency.types false in
/-- At the compiled mesh, for any float values, from any memory with zero counters: every weakly fair execution of the
    program on the TensorCores terminates, and every final state has the result at what the trailing operations make
    of the region's exit contents, and both arguments unchanged. -/
theorem run_main : θ_run defs (onTc (τ := τ) (main (F := F))) ⟨m, fun _ => 0, ρ⟩ (fun r => ∀ c : Dev nD,
      r.2.mem ((c.tc : Thread nD τ).loc main_v4) = Vend m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => StableHlo.held (c : Thread nD τ) (Pipeline.ucRefs τ sig) (Vend m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, -, -⟩, -⟩
      imodintro
      isplitl [Hh]; · iexact Hh
      iexists ∅; iexact HO)
    (QY := fun c s => s.mem ((c : Thread nD τ).loc main_v4) = Vend m c (Proc.devRef .tc main_v4)
      ∧ s.mem ((c : Thread nD τ).loc main_arg0) = m ((c : Thread nD τ).loc main_arg0)
      ∧ s.mem ((c : Thread nD τ).loc main_arg1) = m ((c : Thread nD τ).loc main_arg1))
    (hfin := fun c s' => by
      rw [show StableHlo.held (c : Thread nD τ) (Pipeline.ucRefs τ sig) (Vend m c) = unscopedBufs c (fun b => Vend m c (Proc.devRef .tc b)) from (Pipeline.unscopedBufs_held c _).symm,
        unscopedBufs_chain, Vend_arg0, Vend_arg1]
      iintro ⟨⟨H0, H1, -, -, -, -, -, H4⟩, HSI⟩
      icombine HSI H0 gives %h0
      icombine HSI H1 gives %h1
      icombine HSI H4 gives %h4
      imodintro
      isplitr; · ipureintro; exact ⟨Buf.eq_of_forall_mem_univ h4, Buf.eq_of_forall_mem_univ h0, Buf.eq_of_forall_mem_univ h1⟩
      iexact HSI)
    (hQ := fun _ h => h)

/-- info: 'Cert.KernelIdeal.Hand.run_main' depends on axioms: [propext, Classical.choice, Quot.sound] -/
#guard_msgs in #print axioms run_main

end Cert.KernelIdeal.Hand

end
-- ==== Proof.Spec.lean ====
/-
  The contrastive loss over all pairs of points, as ONE function of the two argument arrays on the extended reals.

  For points x_0 … x_8191 in 256 coordinates and integer labels, the distance of a pair is
      d(r,c) = sqrt (max (|x_r|² + |x_c|² − 2 ⟨x_r, x_c⟩ + 2ε (Σ x_r − Σ x_c) + 256 ε², 1e-12)),
  the expansion of |x_r − x_c + ε|², every literal kept as the float word both programs print; a pair with equal
  labels costs d², any other max (1 − d, 0)², and only the pairs r < c count. The loss is the sum over all pairs
  divided by the number of pairs (as the word both programs print).

  The same quantities are stated for TILES: 512 rows against 512 rows, at a row offset and a column offset, which is
  what one grid point of the kernel adds to its accumulator; the sum over the 16 × 16 tiles is the sum over all pairs
  because addition on the extended reals is commutative and associative (no finiteness is used).
-/
import Idealize.ShloMosaic.PureOps.Ideal
import Idealize.ShloMosaic.PureOps.Ideal.Laws
import Idealize.ShloMosaic.Lib.ValueIdx

noncomputable section

namespace Cert.Contrastive

open Idealize.ShloMosaic Idealize.ShloMosaic.ValueIdx

/-- `n` points in 256 coordinates. -/
abbrev Pts (n : Nat) : Type := (⟨2, ![n, 256]⟩ : Shape).Idx → EReal
/-- A vector, a column and a row of integer labels. -/
abbrev Labs (n : Nat) : Type := (⟨1, ![n]⟩ : Shape).Idx → BitVec 32
abbrev LabCol (n : Nat) : Type := (⟨2, ![n, 1]⟩ : Shape).Idx → BitVec 32
abbrev LabRow (n : Nat) : Type := (⟨2, ![1, n]⟩ : Shape).Idx → BitVec 32

/-- The squared norm of row `r`. -/
def sqn {n : Nat} (x : Pts n) (r : Fin n) : EReal := ∑ k : Fin 256, x (ix2 r k) * x (ix2 r k)
/-- The sum of row `r`'s coordinates. -/
def rsum {n : Nat} (x : Pts n) (r : Fin n) : EReal := ∑ k : Fin 256, x (ix2 r k)
/-- The inner product of row `r` of `x` with row `c` of `y`. -/
def gram {n n' : Nat} (x : Pts n) (y : Pts n') (r : Fin n) (c : Fin n') : EReal := ∑ k : Fin 256, x (ix2 r k) * y (ix2 c k)

/-- The distance of row `r` of `x` from row `c` of `y`: the square root of the expanded squared norm of
    `x_r − y_c + ε`, bounded below by `1e-12`. -/
def dist {n n' : Nat} (x : Pts n) (y : Pts n') (r : Fin n) (c : Fin n') : EReal :=
  Ideal.sqrt (max
    (sqn x r + sqn y c - Ideal.ofBits .f32 0x40000000#32 * gram x y r c
      + Ideal.ofBits .f32 0x360637BD#32 * (rsum x r - rsum y c)
      + Ideal.ofBits .f32 0x2F8CBCCC#32)
    (Ideal.ofBits .f32 0x2B8CBCCC#32))

/-- What a pair at distance `d` costs: `d²` with equal labels, `max (1 − d, 0)²` otherwise; counted only above the
    diagonal. -/
def loss (d : EReal) (same : Prop) [Decidable same] (upper : Prop) [Decidable upper] : EReal :=
  (if same then d * d
    else max (Ideal.ofBits .f32 0x3F800000#32 - d) 0 * max (Ideal.ofBits .f32 0x3F800000#32 - d) 0)
  * (if upper then 1 else 0)

/-- The pair `(r, c)` of the whole array. -/
def pair (x : Pts 8192) (lab : Labs 8192) (r c : Fin 8192) : EReal :=
  loss (dist x x r c) (lab (ix1 r) = lab (ix1 c)) (r.val < c.val)

/-- The sum over all pairs. -/
def total (x : Pts 8192) (lab : Labs 8192) : EReal := ∑ r : Fin 8192, ∑ c : Fin 8192, pair x lab r c

/-- The loss: the sum over all pairs, divided by the pair count. -/
def result (x : Pts 8192) (lab : Labs 8192) : (⟨0, ![]⟩ : Shape).Idx → EReal :=
  fun _ => Ideal.div (total x lab) (Ideal.ofBits .f32 0x4BFFF800#32)

/-! ## Tiles -/

/-- The sum over a tile of 512 rows `xi` (labels `li`, a column) against 512 rows `xj` (labels `lj`, a row), the
    tile being at row block `i` and column block `j` of the 16 × 16 tiling. -/
def tileSum (xi xj : Pts 512) (li : LabCol 512) (lj : LabRow 512) (i j : Fin 16) : EReal :=
  ∑ p : Fin 512, ∑ q : Fin 512,
    loss (dist xi xj p q) (li (ix2 p 0) = lj (ix2 0 q)) (i.val * 512 + p.val < j.val * 512 + q.val)

/-- Row block `i` of the points: rows `512 i … 512 i + 511`. -/
def rowsAt (x : Pts 8192) (i : Fin 16) : Pts 512 :=
  fun y => x (ix2 ⟨i.val * 512 + (y 0).val, by have := (y 0).isLt; have := i.isLt; simp only [Matrix.cons_val_zero] at *; omega⟩ (y 1))
/-- Block `i` of the labels laid out as a column, and block `j` laid out as a row. -/
def colAt (lab : Labs 8192) (i : Fin 16) : LabCol 512 :=
  fun y => lab (ix1 ⟨i.val * 512 + (y 0).val, by have := (y 0).isLt; have := i.isLt; simp only [Matrix.cons_val_zero] at *; omega⟩)
def rowAt (lab : Labs 8192) (j : Fin 16) : LabRow 512 :=
  fun y => lab (ix1 ⟨j.val * 512 + (y 1).val, by have := (y 1).isLt; have := j.isLt; simp only [Matrix.cons_val_one, Matrix.cons_val_zero] at *; omega⟩)

/-- The tile at `(i, j)` of the whole arrays. -/
def tile (x : Pts 8192) (lab : Labs 8192) (i j : Fin 16) : EReal :=
  tileSum (rowsAt x i) (rowsAt x j) (colAt lab i) (rowAt lab j) i j

/-- The float word of one is the extended real one. -/
theorem one_word : Ideal.ofBits .f32 0x3F800000#32 = 1 := by
  simp [Ideal.ofBits, Ideal.ieee, -EReal.coe_mul]; norm_num

end Cert.Contrastive

end
-- ==== Proof.LibRowSum.lean ====
/-
  A sum along the rows of a matrix, read at a row.

  Summing a [a, b] matrix over its second axis gives a vector of length a whose entry r is Σ_k x[r, k]. Over the
  extended reals this holds of the vector unit's add-reduction whatever order it sums in: addition of extended
  reals is commutative and associative, so the reduction is the finite sum over the dropped axis's coordinates,
  and the source index lying over row r with column k put back is (r, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

variable {a b : ℕ}

/-- The source index over row `r` with column `k` inserted on the dropped axis is `(r, k)`. -/
theorem lift_row (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- THE ROW SUM: an f32 add-reduction of a [a, b] matrix over its columns, from the zero word, has at row `r` the
    entry Σ_k x[r, k]. The accumulator's side condition is taken as the equation between the two zero words that a
    printed reduction carries. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

end Idealize.ShloMosaic.RowSum

end
-- ==== Proof.LibColSum.lean ====
/-
  A sum down the columns of a matrix, read at a column.

  Summing a [a, b] matrix over its FIRST axis gives a vector of length b whose entry j is Σ_k x[k, j]. Over the
  extended reals this holds of the vector unit's add-reduction whatever order it sums in: addition of extended
  reals is commutative and associative, so the reduction is the finite sum over the dropped axis's coordinates,
  and the source index lying over column j with row k put back is (k, j).
-/
import Idealize.ShloMosaic.PureOps.Ideal.Laws
import Idealize.ShloMosaic.Lib.ValueIdx

noncomputable section

open scoped BigOperators

namespace Idealize.ShloMosaic.ColSum

open Idealize.ShloMosaic Idealize.ShloMosaic.ValueIdx

variable {a b : ℕ}

/-- The source index over column `j` with row `k` inserted on the dropped axis is `(k, j)`. -/
theorem lift_col (h : (⟨2, ![a, b]⟩ : Shape).Reduces [0] ⟨1, ![b]⟩) (j : Fin b) (k : Fin a) :
    h.lift (ix1 j) k = ix2 k j :=
  funext fun c => Fin.ext (by match c with | ⟨0, _⟩ => rfl | ⟨1, _⟩ => rfl)

/-- THE COLUMN SUM: an f32 add-reduction of a [a, b] matrix over its rows, from the zero word, has at column `j`
    the entry Σ_k x[k, j]. The accumulator's side condition is taken as the equation between the two zero words
    that a printed reduction carries. -/
theorem colSum_apply (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) := by
  refine (Ideal.multiReduction_add_single src 0x00000000#32 h hφ hacc (ix1 j)).trans ?_
  exact Finset.sum_congr rfl fun k _ => congrArg src (lift_col h j k)

end Idealize.ShloMosaic.ColSum

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.PayloadDist.lean ====
/-
  One tile of the pairwise distances, read entry by entry on the extended reals.

  A tile holds 512 rows x and 512 rows y, each of 256 coordinates. The squared distance of row p of x from row q of
  y, shifted by ε in every coordinate, is expanded as |x_p|² + |y_q|² − 2 ⟨x_p, y_q⟩ + 2ε (Σ x_p − Σ y_q) + 256 ε²:
  the two squared norms and the two coordinate sums are sums along a row, placed as a column (for x) or as a row (for
  y) and repeated across the tile; the inner products are the entries of x · yᵀ. A change of float format is the
  identity on the extended reals, a sum along a row is the finite sum whatever its order, and the product x · yᵀ
  started from zero has at (p, q) the sum over the 256 coordinates of x[p, k] · y[q, k]. The entry is then bounded
  below by 1e-12 and its square root taken. The first value of the running total is zero.
-/
import proofs.«123170_j7172595385025_1_alg».proof.Proof.Gen.KernelIdeal.Skeleton
import proofs.«123170_j7172595385025_1_alg».proof.Proof.Spec
import proofs.«123170_j7172595385025_1_alg».proof.Proof.LibRowSum
import proofs.«123170_j7172595385025_1_alg».proof.Proof.LibKeepdimsLayout
import proofs.«123170_j7172595385025_1_alg».proof.Proof.LibDotInner
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Contrastive.Pay

open Idealize.ShloMosaic Idealize.ShloMosaic.ValueIdx Cert.KernelIdeal Cert.KernelIdeal.Gen

/-! ## The running total starts at zero -/

/-- The value the running total is given at the first tile: zero. -/
theorem pay2_apply : k0_pay2 (F := Ideal) (ix2 (0 : Fin 1) (0 : Fin 1)) = 0 := by
  unfold k0_pay2
  rw [shapeCast_self]
  exact Ideal.ofBits_zero_f32

/-! ## Sums along a row, repeated across the tile -/

/-- A square root at an entry is the square root of the entry. -/
theorem sqrt_apply {s : Shape} {φ : FTy} (a : FVec Ideal s φ) (i : s.Idx) : sqrt a i = Ideal.sqrt (a i) := rfl

/-- The sums of the rows of x, kept as a column and repeated along each row of the tile: at (p, q) the sum of row p. -/
theorem colOfRowSum_apply (x : FVec Ideal S512x256 .f32) (p q : Fin 512) :
    broadcastTo S512x512 (shapeCast S512x1 (multiReduction .add [1] S512 x 0x00000000#32
        reduces_S512x256_S512 (.inl rfl) rfl) shapeCasts_S512_S512x1) broadcasts_S512x1_S512x512 (ix2 p q)
      = ∑ k : Fin 256, x (ix2 p k) :=
  (Cert.LayoutKeepdims.broadcastTo_a1_ab_apply _ _ p q).trans <|
    (Cert.LayoutKeepdims.shapeCast_a_a1_apply _ _ p 0).trans <|
      RowSum.rowSum_apply x _ _ rfl p

/-- The sums of the rows of y, laid out as a row and repeated down each column of the tile: at (p, q) the sum of row q. -/
theorem rowOfRowSum_apply (x : FVec Ideal S512x256 .f32) (p q : Fin 512) :
    broadcastTo S512x512 (shapeCast S1x512 (multiReduction .add [1] S512 x 0x00000000#32
        reduces_S512x256_S512 (.inl rfl) rfl) shapeCasts_S512_S1x512) broadcasts_S1x512_S512x512 (ix2 p q)
      = ∑ k : Fin 256, x (ix2 q k) :=
  (broadcastTo_1b_ab_apply _ _ p q).trans <|
    (shapeCast_a_1a_apply _ _ 0 q).trans <|
      RowSum.rowSum_apply x _ _ rfl q

/-! ## The inner products -/

/-- Which coordinates of the two factors an entry of the product and a contraction index name: the result's row and the
    contraction index on the left, the contraction index and the result's column on the right. -/
theorem dot_lhs0 (i : S512x512.Idx) (c : dot_S512x256_S256x512_S512x512_1_0_0_1_n_n.contr.Idx) :
    (dot_S512x256_S256x512_S512x512_1_0_0_1_n_n.lhsIdx i c 0).val = (i 0).val := by
  unfold DotDims.lhsIdx
  rw [dif_neg (show ¬(0 : Fin S512x256.rank) ∈ dot_S512x256_S256x512_S512x512_1_0_0_1_n_n.lhsBatch by decide),
    dif_pos (show (0 : Fin S512x256.rank) ∈ dot_S512x256_S256x512_S512x512_1_0_0_1_n_n.lhsNonContracting by decide)]
  rfl
theorem dot_lhs1 (i : S512x512.Idx) (c : dot_S512x256_S256x512_S512x512_1_0_0_1_n_n.contr.Idx) :
    (dot_S512x256_S256x512_S512x512_1_0_0_1_n_n.lhsIdx i c 1).val = (c ⟨0, by decide⟩).val :=
  dot_S512x256_S256x512_S512x512_1_0_0_1_n_n.lhsIdx_val_of_single rfl i c
theorem dot_rhs0 (i : S512x512.Idx) (c : dot_S512x256_S256x512_S512x512_1_0_0_1_n_n.contr.Idx) :
    (dot_S512x256_S256x512_S512x512_1_0_0_1_n_n.rhsIdx i c 0).val = (c ⟨0, by decide⟩).val :=
  dot_S512x256_S256x512_S512x512_1_0_0_1_n_n.rhsIdx_val_of_single rfl i c
theorem dot_rhs1 (i : S512x512.Idx) (c : dot_S512x256_S256x512_S512x512_1_0_0_1_n_n.contr.Idx) :
    (dot_S512x256_S256x512_S512x512_1_0_0_1_n_n.rhsIdx i c 1).val = (i 1).val := by
  unfold DotDims.rhsIdx
  rw [dif_neg (show ¬(1 : Fin S256x512.rank) ∈ dot_S512x256_S256x512_S512x512_1_0_0_1_n_n.rhsBatch by decide),
    dif_pos (show (1 : Fin S256x512.rank) ∈ dot_S512x256_S256x512_S512x512_1_0_0_1_n_n.rhsNonContracting by decide)]
  rfl

/-- The product x · yᵀ started from zero: at (p, q) the inner product of row p of x with row q of y. -/
theorem gram_apply (x y : Vec Ideal S512x256 .f32) (p q : Fin 512) :
    matmul dot_S512x256_S256x512_S512x512_1_0_0_1_n_n none (truncf .bf16 x bitsLt_bf16_f32)
        (transpose S256x512 [1, 0] (truncf .bf16 y bitsLt_bf16_f32) transposes_S512x256_p1_0_S256x512)
        (constant (F := Ideal) S512x512 .f32 0x00000000#32) (ix2 p q)
      = ∑ k : Fin 256, x (ix2 p k) * y (ix2 q k) := by
  refine (DotInner.matmul_zero_apply dot_S512x256_S256x512_S512x512_1_0_0_1_n_n rfl rfl dot_lhs0 dot_lhs1 dot_rhs0 dot_rhs1
    none _ _ p q).trans ?_
  refine Finset.sum_congr rfl fun k _ => ?_
  rw [transpose_ix2_apply]
  rfl

/-! ## The distances of the tile -/

/-- THE TILE'S DISTANCES: the kernel's value at (p, q) is the distance of row p of x from row q of y. -/
theorem pay3_apply (v5 v6 : Vec Ideal S512x256 .f32) (p q : Fin 512) :
    k0_pay3 (F := Ideal) v5 v6 (ix2 p q) = Cert.Contrastive.dist v5 v6 p q := by
  unfold k0_pay3 Cert.Contrastive.dist Cert.Contrastive.sqn Cert.Contrastive.rsum Cert.Contrastive.gram
  dsimp only
  simp only [sqrt_apply, maximumf_apply, addf_apply, subf_apply, mulf_apply, broadcast_apply]
  rw [colOfRowSum_apply, rowOfRowSum_apply, colOfRowSum_apply, rowOfRowSum_apply, gram_apply]
  simp only [mulf_apply]
  rfl

end Cert.Contrastive.Pay

end
-- ==== Proof.PayloadAcc.lean ====
/-
  The running total's update at one tile, on the extended reals.

  At the tile in row block i and column block j of the 16 × 16 tiling, the pair (row p of the block, column q of the
  block) at distance d costs d² when its two labels are equal and max (1 − d, 0)² otherwise, and it is counted only when
  its row number 512 i + p in the whole array is below its column number 512 j + q. The two numbers are below 8192, so
  the 32-bit words that hold them read, signed, as the numbers themselves, and the comparison of the words is the
  comparison of the numbers; the comparison's bit, widened to a word and read as a number, is 1 or 0. The tile's costs
  are summed along each row, the row sums down the one column, and the total is added to the running total; each sum is
  the finite sum over its axis whatever its order, addition on the extended reals being commutative and associative.
-/
import proofs.«123170_j7172595385025_1_alg».proof.Proof.Gen.KernelIdeal.Skeleton
import proofs.«123170_j7172595385025_1_alg».proof.Proof.Spec
import proofs.«123170_j7172595385025_1_alg».proof.Proof.LibRowSum
import proofs.«123170_j7172595385025_1_alg».proof.Proof.LibColSum
import proofs.«123170_j7172595385025_1_alg».proof.Proof.LibKeepdimsLayout
import proofs.«123170_j7172595385025_1_alg».proof.Proof.PayloadDist
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

open scoped BigOperators

namespace Cert.Contrastive.Pay

open Idealize.ShloMosaic Idealize.ShloMosaic.ValueIdx Cert.KernelIdeal Cert.KernelIdeal.Gen

/-! ## Words at an entry -/

/-- An integer comparison at an entry compares the entries. -/
theorem cmpi_apply {s : Shape} {w : Nat} (c : CmpIPredicate) (a b : IVec s w) (i : s.Idx) :
    cmpi c a b i = IntOp.cmpi c (a i) (b i) := rfl
/-- An integer sum at an entry adds the entries. -/
theorem addi_apply {s : Shape} {w : Nat} (a b : IVec s w) (i : s.Idx) : addi a b i = IntOp.addi (a i) (b i) := rfl

/-- A choice on the bit "the two words are equal" is the choice on their equality. -/
theorem select_eq (a b : BitVec 32) (X Y : EReal) :
    Scalar.select (IntOp.cmpi .eq a b) X Y = if a = b then X else Y := by
  by_cases h : a = b
  · rw [IntOp.cmpi_eq.mpr h, select_one, if_pos h]
  · rw [eq_zero_of_ne_one (fun hh => h (IntOp.cmpi_eq.mp hh)), select_zero, if_neg h]

/-- The bit "row number below column number", widened to a word and read as a number, is 1 when 512 i + p < 512 j + q and
    0 otherwise: both numbers are below 8192, so neither word wraps and both read, signed, as the numbers. -/
theorem upper_word (i j : Fin 16) (p q : Fin 512) :
    FloatOps.sitofp (F := Ideal) .f32
        ((IntOp.cmpi .slt (IntOp.addi (BitVec.ofNat 32 p.val) (Scalar.muli (BitVec.ofNat 32 i.val) 512#32))
          (IntOp.addi (BitVec.ofNat 32 q.val) (Scalar.muli (BitVec.ofNat 32 j.val) 512#32))).setWidth 32)
      = if i.val * 512 + p.val < j.val * 512 + q.val then (1 : EReal) else 0 := by
  have hp := p.isLt
  have hq := q.isLt
  have hi := i.isLt
  have hj := j.isLt
  have ha : Affine.IsInt (Scalar.addi (BitVec.ofNat 32 p.val) (Scalar.muli (BitVec.ofNat 32 i.val) 512#32))
      ((i.val : Int) * 512 + p.val) :=
    Affine.addi (Affine.ofNat p.val ⟨rfl, by omega⟩)
      (Affine.muli (Affine.ofNat i.val ⟨rfl, by omega⟩) (Affine.ofNat 512 ⟨rfl, by omega⟩) ⟨rfl, by omega, by omega⟩)
      ⟨by omega, by omega, by omega⟩
  have hb : Affine.IsInt (Scalar.addi (BitVec.ofNat 32 q.val) (Scalar.muli (BitVec.ofNat 32 j.val) 512#32))
      ((j.val : Int) * 512 + q.val) :=
    Affine.addi (Affine.ofNat q.val ⟨rfl, by omega⟩)
      (Affine.muli (Affine.ofNat j.val ⟨rfl, by omega⟩) (Affine.ofNat 512 ⟨rfl, by omega⟩) ⟨rfl, by omega, by omega⟩)
      ⟨by omega, by omega, by omega⟩
  show ((((IntOp.cmpi .slt _ _).setWidth 32).toInt : ℝ) : EReal) = _
  by_cases h : i.val * 512 + p.val < j.val * 512 + q.val
  · have hc : IntOp.cmpi .slt (IntOp.addi (BitVec.ofNat 32 p.val) (Scalar.muli (BitVec.ofNat 32 i.val) 512#32))
        (IntOp.addi (BitVec.ofNat 32 q.val) (Scalar.muli (BitVec.ofNat 32 j.val) 512#32)) = 1#1 :=
      Affine.slt_holds ha hb (by omega)
    rw [hc, if_pos h]
    simp
  · have hc : IntOp.cmpi .slt (IntOp.addi (BitVec.ofNat 32 p.val) (Scalar.muli (BitVec.ofNat 32 i.val) 512#32))
        (IntOp.addi (BitVec.ofNat 32 q.val) (Scalar.muli (BitVec.ofNat 32 j.val) 512#32)) = 0#1 :=
      eq_zero_of_ne_one (Affine.slt_fails ha hb (by omega))
    rw [hc, if_neg h]
    simp

/-! ## The update -/

/-- THE UPDATE: the running total after the tile at (i, j) is the running total before it plus the sum over the tile's
    pairs of each pair's cost. -/
theorem pay1_apply (i j : Fin 16) (v37 : FVec Ideal S512x512 .f32) (v38 : Vec Ideal S512x1 .i32)
    (v40 : Vec Ideal S1x512 .i32) (v68 : Vec Ideal S1x1 .f32) :
    k0_pay1 (F := Ideal) (BitVec.ofNat 32 i.val) (BitVec.ofNat 32 j.val) v37 v38 v40 v68 (ix2 (0 : Fin 1) (0 : Fin 1))
      = v68 (ix2 (0 : Fin 1) (0 : Fin 1)) + ∑ p : Fin 512, ∑ q : Fin 512,
          Cert.Contrastive.loss (v37 (ix2 p q)) (v38 (ix2 p (0 : Fin 1)) = v40 (ix2 (0 : Fin 1) q))
            (i.val * 512 + p.val < j.val * 512 + q.val) := by
  unfold k0_pay1
  simp only [shapeCast_self]
  refine (addf_apply (s := S1x1) (φ := .f32) v68 _ _).trans ?_
  refine congrArg (v68 (ix2 (0 : Fin 1) (0 : Fin 1)) + ·) ?_
  refine (Cert.LayoutKeepdims.shapeCast_a_a1_apply _ _ (0 : Fin 1) (0 : Fin 1)).trans ?_
  refine (ColSum.colSum_apply _ _ _ rfl (0 : Fin 1)).trans ?_
  refine Finset.sum_congr rfl fun p _ => ?_
  refine (Cert.LayoutKeepdims.shapeCast_a_a1_apply _ _ p (0 : Fin 1)).trans ?_
  refine (RowSum.rowSum_apply _ _ _ rfl p).trans ?_
  refine Finset.sum_congr rfl fun q _ => ?_
  simp only [mulf_apply, select_apply, cmpi_apply, addi_apply, sitofp_apply, extui_apply, maximumf_apply, subf_apply,
    broadcast_apply]
  rw [Cert.LayoutKeepdims.broadcastTo_a1_ab_apply, broadcastTo_1b_ab_apply, iota_single_apply, iota_single_apply]
  refine (congrArg₂ (· * ·) (select_eq _ _ _ _) (upper_word i j p q)).trans ?_
  have hz : (Scalar.ofBits (F := Ideal) .f32 0x00000000#32 : EReal) = 0 := Ideal.ofBits_zero_f32
  rw [hz]
  rfl

/-- With the tile's distances for the costs' distances, the update adds the tile's sum. -/
theorem pay1_tile (i j : Fin 16) (v5 v6 : Vec Ideal S512x256 .f32) (v38 : Vec Ideal S512x1 .i32)
    (v40 : Vec Ideal S1x512 .i32) (v68 : Vec Ideal S1x1 .f32) :
    k0_pay1 (F := Ideal) (BitVec.ofNat 32 i.val) (BitVec.ofNat 32 j.val) (k0_pay3 (F := Ideal) v5 v6) v38 v40 v68
        (ix2 (0 : Fin 1) (0 : Fin 1))
      = v68 (ix2 (0 : Fin 1) (0 : Fin 1)) + Cert.Contrastive.tileSum v5 v6 v38 v40 i j := by
  rw [pay1_apply]
  unfold Cert.Contrastive.tileSum
  refine congrArg (v68 (ix2 (0 : Fin 1) (0 : Fin 1)) + ·) ?_
  refine Finset.sum_congr rfl fun p _ => Finset.sum_congr rfl fun q _ => ?_
  rw [pay3_apply]

end Cert.Contrastive.Pay

end
-- ==== Proof.TileCover.lean ====
/-
  The 16 × 16 tiles of 512 × 512 pairs cover every pair of the 8192 rows exactly once.

  Row r of the whole array is row p of row block i exactly when r = 512 i + p; this is a bijection between the
  pairs (i, p) with i < 16, p < 512 and the rows r < 8192 (quotient and remainder by 512). A sum over all rows is
  therefore the sum over the blocks of the sums over the rows of a block, in any commutative additive monoid: nothing
  but the commutativity and associativity of addition is used, which the extended reals have without any finiteness.
  Under this bijection the quantities of a tile are those of the whole array: row p of block i of the points IS row
  512 i + p of the points, likewise for the labels, and the condition "above the diagonal" of a tile is stated on
  512 i + p and 512 j + q themselves. Applying the regrouping to the rows and to the columns, and exchanging the sum
  over column blocks with the sum over the rows of a block, turns the sum over all pairs into the sum over the tiles.

  The same regrouping with 16 in place of 512 says that visiting the tiles in the order t = 16 i + j, t = 0 … 255,
  visits every tile (i, j) exactly once.
-/
import proofs.«123170_j7172595385025_1_alg».proof.Proof.Spec

noncomputable section

namespace Cert.Contrastive.Cover

open Idealize.ShloMosaic Idealize.ShloMosaic.ValueIdx Cert.Contrastive

/-- Row p of row block i, as a row of the whole array. -/
def row (i : Fin 16) (p : Fin 512) : Fin 8192 := ⟨i.val * 512 + p.val, by have := i.isLt; have := p.isLt; omega⟩

/-- Block and position within the block, against the row: quotient and remainder by 512. -/
def rowEquiv : Fin 16 × Fin 512 ≃ Fin 8192 where
  toFun ip := row ip.1 ip.2
  invFun r := (⟨r.val / 512, by have := r.isLt; omega⟩, ⟨r.val % 512, by omega⟩)
  left_inv := fun ⟨i, p⟩ => by
    have := i.isLt; have := p.isLt
    refine Prod.ext (Fin.ext ?_) (Fin.ext ?_)
    · show (i.val * 512 + p.val) / 512 = i.val; omega
    · show (i.val * 512 + p.val) % 512 = p.val; omega
  right_inv := fun r => Fin.ext (by show r.val / 512 * 512 + r.val % 512 = r.val; omega)

/-- A sum over the rows is the sum over the blocks of the sums over a block's rows. -/
theorem sum_rows {M : Type*} [AddCommMonoid M] (g : Fin 8192 → M) :
    ∑ r : Fin 8192, g r = ∑ i : Fin 16, ∑ p : Fin 512, g (row i p) := by
  rw [← Fintype.sum_prod_type' (f := fun i p => g (row i p))]
  exact (Equiv.sum_comp rowEquiv g).symm

/-- One pair of a tile is the pair of the whole array at the rows the tile's positions name: the block of points
    and the blocks of labels are restrictions of the whole arrays, and the tile compares 512 i + p with 512 j + q. -/
theorem tile_pair (x : Pts 8192) (lab : Labs 8192) (i j : Fin 16) (p q : Fin 512) :
    loss (dist (rowsAt x i) (rowsAt x j) p q) (colAt lab i (ix2 p 0) = rowAt lab j (ix2 0 q))
        (i.val * 512 + p.val < j.val * 512 + q.val)
      = pair x lab (row i p) (row j q) := rfl

/-- A tile is the sum of the whole array's pairs over its rows and columns. -/
theorem tile_eq (x : Pts 8192) (lab : Labs 8192) (i j : Fin 16) :
    tile x lab i j = ∑ p : Fin 512, ∑ q : Fin 512, pair x lab (row i p) (row j q) := by
  unfold tile tileSum
  exact Finset.sum_congr rfl fun p _ => Finset.sum_congr rfl fun q _ => tile_pair x lab i j p q

/-- The tiles cover the pairs: the sum over the 16 × 16 tiles is the sum over all pairs. -/
theorem total_eq_tiles (x : Pts 8192) (lab : Labs 8192) :
    (∑ i : Fin 16, ∑ j : Fin 16, tile x lab i j) = total x lab := by
  unfold total
  rw [sum_rows (fun r => ∑ c : Fin 8192, pair x lab r c)]
  refine Finset.sum_congr rfl fun i _ => ?_
  have hcols : ∀ p : Fin 512, (∑ c : Fin 8192, pair x lab (row i p) c)
      = ∑ j : Fin 16, ∑ q : Fin 512, pair x lab (row i p) (row j q) := fun p => sum_rows _
  rw [Finset.sum_congr rfl fun p _ => hcols p, Finset.sum_comm]
  exact Finset.sum_congr rfl fun j _ => tile_eq x lab i j

/-! ## The order in which the tiles are visited -/

/-- Step t = 16 i + j of the visit, against the tile (i, j): quotient and remainder by 16. -/
def stepEquiv : Fin 16 × Fin 16 ≃ Fin 256 where
  toFun ij := ⟨ij.1.val * 16 + ij.2.val, by have := ij.1.isLt; have := ij.2.isLt; omega⟩
  invFun t := (⟨t.val / 16, by have := t.isLt; omega⟩, ⟨t.val % 16, by omega⟩)
  left_inv := fun ⟨i, j⟩ => by
    have := i.isLt; have := j.isLt
    refine Prod.ext (Fin.ext ?_) (Fin.ext ?_)
    · show (i.val * 16 + j.val) / 16 = i.val; omega
    · show (i.val * 16 + j.val) % 16 = j.val; omega
  right_inv := fun t => Fin.ext (by show t.val / 16 * 16 + t.val % 16 = t.val; omega)

/-- Adding the tile (t / 16, t mod 16) for every step t adds every tile once. -/
theorem acc_eq {M : Type*} [AddCommMonoid M] (f : Fin 16 → Fin 16 → M) :
    (∑ t : Fin 256, f ⟨t.val / 16, by have := t.isLt; omega⟩ ⟨t.val % 16, by omega⟩) = ∑ i : Fin 16, ∑ j : Fin 16, f i j := by
  rw [← Fintype.sum_prod_type' (f := f)]
  exact (Equiv.sum_comp stepEquiv.symm (fun ij : Fin 16 × Fin 16 => f ij.1 ij.2))

end Cert.Contrastive.Cover

end
-- ==== Proof.KIValue.lean ====
/-
  What the kernel's program computes, at the exact reading of its floats: the contrastive loss of the specification.

  The result array after the region is what the last grid point wrote back: the accumulator after the last point.
  Point t reads rows 512·i … of the points (i = t / 16, the first grid coordinate) through one window and rows 512·j …
  (j = t % 16) through the other, and the label blocks i and j as a column and a row; so the update at point t adds
  the sum over tile (i, j). The accumulator after the last point is therefore zero plus the 256 tile sums in grid
  order, which is the sum over all pairs — addition of extended reals is commutative and associative, and nothing
  else is used. The trailing operations divide that by the pair count.
-/
import proofs.«123170_j7172595385025_1_alg».proof.Proof.KIRun
import proofs.«123170_j7172595385025_1_alg».proof.Proof.PayloadAcc
import proofs.«123170_j7172595385025_1_alg».proof.Proof.TileCover
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Contrastive

/-! ## The result array after the region, for any float values -/

section AnyFloat

variable (m : (ℓ : Loc nD τ sig) → Buf (Elt F) ℓ)

/-- Every window's block index, from the grid coordinates: the points by the first coordinate and by the second, the
    label column by the first, the label row by the second, the result always block (0, 0). -/
theorem idx_facts : ∀ t : Fin cfg0.N,
    win0_0.index t (0 : Fin 2) = ((grid0.coords t) 0).val ∧ win0_0.index t (1 : Fin 2) = 0
    ∧ win0_1.index t (0 : Fin 2) = ((grid0.coords t) 1).val ∧ win0_1.index t (1 : Fin 2) = 0
    ∧ win0_2.index t (0 : Fin 2) = ((grid0.coords t) 0).val ∧ win0_2.index t (1 : Fin 2) = 0
    ∧ win0_3.index t (0 : Fin 2) = 0 ∧ win0_3.index t (1 : Fin 2) = ((grid0.coords t) 1).val
    ∧ win0_4.index t (0 : Fin 2) = 0 ∧ win0_4.index t (1 : Fin 2) = 0 :=
  (by decide +kernel : ∀ t : Fin grid0.N, _)

/-- The grid is walked row-major. -/
theorem coords_facts : ∀ t : Fin cfg0.N, ((grid0.coords t) 0).val = t.val / 16 ∧ ((grid0.coords t) 1).val = t.val % 16 :=
  (by decide +kernel : ∀ t : Fin grid0.N, _)

/-- What the one writing-back point writes back is the accumulator after the last point, read through the block. -/
theorem flushed4_eq (c : Dev nD) (t : Fin cfg0.N) (hf : (cfg0.win 4).flush t = true) :
    (dats m 0 c).flushed 4 t = ((cfg0.win 4).blk t).view.read (Elt F) (accAt m c 255) := by
  have ht : t.val = 255 := by have h := (flush0_4 t).mp hf; have := lt_of_lt_of_eq t.isLt N_eq; omega
  show (cfg0.win 4).cut (grid0.coords t) ((dats m 0 c).after 4 t) = _
  rw [after0_4, ht]
  obtain ⟨-, -, -, -, -, -, -, -, e0, e1⟩ := idx_facts t
  funext j
  show accAt m c 255 j = accAt m c 255 (((cfg0.win 4).blk t).view.emb j)
  refine congrArg (accAt m c 255) ?_
  funext a; apply Fin.ext
  match a with
  | ⟨0, _⟩ => show (j 0).val = win0_4.index t (0 : Fin 2) * 1 + 1 * (j 0).val; omega
  | ⟨1, _⟩ => show (j 1).val = win0_4.index t (1 : Fin 2) * 1 + 1 * (j 1).val; omega

/-- The result array is one block, and the last point writes it back. -/
theorem cover4 (c : Dev nD) (i : S1x1.Idx) : ∃ t : Fin cfg0.N, (cfg0.win 4).flush t = true ∧ i ∈ ((cfg0.win 4).blk t).view.set := by
  have hN : 255 < cfg0.N := by rw [N_eq]; decide
  refine ⟨⟨255, hN⟩, (flush0_4 _).mpr rfl, ?_⟩
  obtain ⟨-, -, -, -, -, -, -, -, e0, e1⟩ := idx_facts ⟨255, hN⟩
  show i ∈ ((View.whole main_v2).slice (win0_4.rect ⟨255, hN⟩)).set
  rw [View.set_slice_whole, Rect.mem_set_unit]
  intro a
  match a with
  | ⟨0, _⟩ =>
    show win0_4.index ⟨255, hN⟩ (0 : Fin 2) * 1 ≤ (i 0).val ∧ (i 0).val < win0_4.index ⟨255, hN⟩ (0 : Fin 2) * 1 + 1
    have h0 : (i 0).val < 1 := (i 0).isLt
    omega
  | ⟨1, _⟩ =>
    show win0_4.index ⟨255, hN⟩ (1 : Fin 2) * 1 ≤ (i 1).val ∧ (i 1).val < win0_4.index ⟨255, hN⟩ (1 : Fin 2) * 1 + 1
    have h1 : (i 1).val < 1 := (i 1).isLt
    omega

/-- After the region the result array holds the accumulator after the last point. -/
theorem outA_eq (c : Dev nD) : outA m c = accAt m c 255 :=
  (dats m 0 c).arrAt_eq_of_cover 4 (accAt m c 255) (fun t hf => flushed4_eq m c t hf) (cover4 c)

/-- The program's result: the accumulator's one entry, laid out as a scalar, divided by the pair count's word. -/
theorem Vend_v4 (c : Dev nD) :
    Vend m c (Proc.devRef .tc main_v4) = Host.divf (shapeCast S_ (accAt m c 255) shapeCasts_S1x1_S_) (constant S_ .f32 0x4BFFF800#32) := by
  have h : Vend m c (Proc.devRef .tc main_v4)
      = Host.divf (shapeCast S_ (Vx m c (Proc.devRef .tc main_v2)) shapeCasts_S1x1_S_) (constant S_ .f32 0x4BFFF800#32) := by
    show StableHlo.after hostOps1 (Vx m c) (Proc.devRef .tc main_v4) = _
    after_results
    rfl
  rw [h, Vx_v2, outA_eq]

/-- The arrays the windows read, as the region finds them: the points as launched, the labels as a column and a row. -/
theorem V_arg0 (c : Dev nD) : V m c main_arg0 = m ((c : Thread nD τ).loc main_arg0) :=
  StableHlo.after_of_forall_not_mem (b := Proc.devRef .tc main_arg0) hostOps0 (Vl m c) (not_written0 main_arg0 (by decide))
theorem V_v0 (c : Dev nD) : V m c main_v0 = shapeCast S8192x1 (m ((c : Thread nD τ).loc main_arg1)) shapeCasts_S8192_S8192x1 := by
  show StableHlo.after hostOps0 (Vl m c) (Proc.devRef .tc main_v0) = _
  after_results
  rfl
theorem V_v1 (c : Dev nD) : V m c main_v1 = shapeCast S1x8192 (m ((c : Thread nD τ).loc main_arg1)) shapeCasts_S8192_S1x8192 := by
  show StableHlo.after hostOps0 (Vl m c) (Proc.devRef .tc main_v1) = _
  after_results
  rfl

end AnyFloat

/-! ## At the exact reading -/

section Exact

variable (m : (ℓ : Loc nD τ sig) → Buf (Elt Ideal) ℓ)

/-- The two arguments: the points and the labels. -/
abbrev xs (c : Dev nD) : Pts 8192 := m ((c : Thread nD τ).loc main_arg0)
abbrev labs (c : Dev nD) : Labs 8192 := m ((c : Thread nD τ).loc main_arg1)

/-- The first points window's block at point `t` is row block `i` of the points; -/
theorem iblk0_eq (c : Dev nD) (t : Fin cfg0.N) : iblk m c 0 t = rowsAt (xs m c) ((grid0.coords t) 0) := by
  obtain ⟨e0, e1, -⟩ := idx_facts t
  funext y
  show V m c main_arg0 (((cfg0.win 0).blk t).view.emb y) = xs m c (ix2 ⟨((grid0.coords t) 0).val * 512 + (y 0).val, _⟩ (y 1))
  rw [V_arg0]
  refine congrArg (xs m c) ?_
  funext a; apply Fin.ext
  match a with
  | ⟨0, _⟩ => show win0_0.index t (0 : Fin 2) * 512 + 1 * (y 0).val = ((grid0.coords t) 0).val * 512 + (y 0).val; omega
  | ⟨1, _⟩ => show win0_0.index t (1 : Fin 2) * 256 + 1 * (y 1).val = (y 1).val; omega

/-- the second's is row block `j`; -/
theorem iblk1_eq (c : Dev nD) (t : Fin cfg0.N) : iblk m c 1 t = rowsAt (xs m c) ((grid0.coords t) 1) := by
  obtain ⟨-, -, e0, e1, -⟩ := idx_facts t
  funext y
  show V m c main_arg0 (((cfg0.win 1).blk t).view.emb y) = xs m c (ix2 ⟨((grid0.coords t) 1).val * 512 + (y 0).val, _⟩ (y 1))
  rw [V_arg0]
  refine congrArg (xs m c) ?_
  funext a; apply Fin.ext
  match a with
  | ⟨0, _⟩ => show win0_1.index t (0 : Fin 2) * 512 + 1 * (y 0).val = ((grid0.coords t) 1).val * 512 + (y 0).val; omega
  | ⟨1, _⟩ => show win0_1.index t (1 : Fin 2) * 256 + 1 * (y 1).val = (y 1).val; omega

/-- the label column's is block `i` of the labels; -/
theorem iblk2_eq (c : Dev nD) (t : Fin cfg0.N) : iblk m c 2 t = colAt (labs m c) ((grid0.coords t) 0) := by
  obtain ⟨-, -, -, -, e0, e1, -⟩ := idx_facts t
  funext y
  show V m c main_v0 (((cfg0.win 2).blk t).view.emb y) = labs m c (ix1 ⟨((grid0.coords t) 0).val * 512 + (y 0).val, _⟩)
  obtain ⟨p, q, hpq⟩ : ∃ (p : Fin 8192) (q : Fin 1), ((cfg0.win 2).blk t).view.emb y = ix2 p q := ⟨_, _, eq_ix2 _⟩
  have hp : p.val = win0_2.index t (0 : Fin 2) * 512 + 1 * (y 0).val := (congrArg (fun f : S8192x1.Idx => (f 0).val) hpq).symm
  rw [V_v0, hpq, Cert.LayoutKeepdims.shapeCast_a_a1_apply]
  refine congrArg (labs m c) (congrArg ix1 (Fin.ext ?_))
  show p.val = ((grid0.coords t) 0).val * 512 + (y 0).val
  omega

/-- and the label row's is block `j`. -/
theorem iblk3_eq (c : Dev nD) (t : Fin cfg0.N) : iblk m c 3 t = rowAt (labs m c) ((grid0.coords t) 1) := by
  obtain ⟨-, -, -, -, -, -, e0, e1, -⟩ := idx_facts t
  funext y
  show V m c main_v1 (((cfg0.win 3).blk t).view.emb y) = labs m c (ix1 ⟨((grid0.coords t) 1).val * 512 + (y 1).val, _⟩)
  obtain ⟨p, q, hpq⟩ : ∃ (p : Fin 1) (q : Fin 8192), ((cfg0.win 3).blk t).view.emb y = ix2 p q := ⟨_, _, eq_ix2 _⟩
  have hq : q.val = win0_3.index t (1 : Fin 2) * 512 + 1 * (y 1).val := (congrArg (fun f : S1x8192.Idx => (f 1).val) hpq).symm
  rw [V_v1, hpq, shapeCast_a_1a_apply]
  refine congrArg (labs m c) (congrArg ix1 (Fin.ext ?_))
  show q.val = ((grid0.coords t) 1).val * 512 + (y 1).val
  omega

/-- The tile of point `t`. -/
def tileAt (c : Dev nD) (t : Fin cfg0.N) : EReal := tile (xs m c) (labs m c) ((grid0.coords t) 0) ((grid0.coords t) 1)

/-- One update of the accumulator adds the point's tile. -/
theorem step_apply (c : Dev nD) (t : Fin cfg0.N) (acc : Vec Ideal S1x1 .f32) :
    stepAt m c t acc (ix2 (0 : Fin 1) (0 : Fin 1)) = acc (ix2 (0 : Fin 1) (0 : Fin 1)) + tileAt m c t := by
  unfold stepAt tileAt tile
  refine (Pay.pay1_tile ((grid0.coords t) 0) ((grid0.coords t) 1) (iblk m c 0 t) (iblk m c 1 t) (iblk m c 2 t) (iblk m c 3 t) acc).trans ?_
  rw [iblk0_eq, iblk1_eq, iblk2_eq, iblk3_eq]

/-- The tile of the point numbered `k` (zero past the grid). -/
def tileN (c : Dev nD) (k : ℕ) : EReal := if h : k < cfg0.N then tileAt m c ⟨k, h⟩ else 0

/-- The accumulator after point `n` is the sum of the tiles of the points up to `n`. -/
theorem accAt_sum (c : Dev nD) : ∀ n, n < cfg0.N → accAt m c n (ix2 (0 : Fin 1) (0 : Fin 1)) = ∑ k ∈ Finset.range (n + 1), tileN m c k
  | 0, hn => by
    have hg : tileN m c 0 = tileAt m c ⟨0, hn⟩ := dif_pos hn
    show stepN m c 0 (k0_pay2 (F := Ideal)) (ix2 (0 : Fin 1) (0 : Fin 1)) = _
    unfold stepN
    rw [dif_pos hn, step_apply, Pay.pay2_apply, zero_add, Finset.sum_range_one, hg]
  | n + 1, hn => by
    have hg : tileN m c (n + 1) = tileAt m c ⟨n + 1, hn⟩ := dif_pos hn
    show stepN m c (n + 1) (accAt m c n) (ix2 (0 : Fin 1) (0 : Fin 1)) = _
    unfold stepN
    rw [dif_pos hn, step_apply, accAt_sum c n (by omega), Finset.sum_range_succ _ (n + 1), hg]

/-- After the last point: the sum over all pairs. -/
theorem acc_total (c : Dev nD) : accAt m c 255 (ix2 (0 : Fin 1) (0 : Fin 1)) = total (xs m c) (labs m c) := by
  rw [accAt_sum m c 255 (by rw [N_eq]; decide), Finset.sum_range (tileN m c),
    ← Cover.total_eq_tiles, ← Cover.acc_eq (fun i j => tile (xs m c) (labs m c) i j)]
  refine Finset.sum_congr rfl fun t _ => ?_
  have ht : t.val < cfg0.N := by rw [N_eq]; exact t.isLt
  obtain ⟨c0, c1⟩ := coords_facts (⟨t.val, ht⟩ : Fin cfg0.N)
  show tileN m c t.val = _
  unfold tileN; rw [dif_pos ht]; unfold tileAt
  exact congrArg₂ (tile (xs m c) (labs m c)) (Fin.ext c0) (Fin.ext c1)

/-- THE VALUE: the program's result is the loss of the specification, of the two arguments as launched. -/
theorem result_eq (c : Dev nD) : Vend m c (Proc.devRef .tc main_v4) = Cert.Contrastive.result (xs m c) (labs m c) := by
  rw [Vend_v4]
  funext i
  show Ideal.div (shapeCast S_ (accAt m c 255) shapeCasts_S1x1_S_ i) (Ideal.ofBits .f32 0x4BFFF800#32)
    = Ideal.div (total (xs m c) (labs m c)) (Ideal.ofBits .f32 0x4BFFF800#32)
  rw [shapeCast_apply (accAt m c 255) shapeCasts_S1x1_S_ i (ix2 (0 : Fin 1) (0 : Fin 1)) (by
    have h0 : (S_.rowMajor i).val < 1 := (S_.rowMajor i).isLt
    rw [Shape.rowMajor_val_two]
    show 0 * 1 + 0 = _
    omega), acc_total]

end Exact

end Cert.KernelIdeal.Hand

end
-- ==== Proof.RefValue.lean ====
/-
  The reference program computes the contrastive loss of the specification.

  Read one operation at a time, the reference forms, for every pair of rows (r, c): the squared norms |x_r|² and
  |x_c|² (row sums of x·x), the inner product ⟨x_r, x_c⟩ (a contraction of x with its transpose), the row sums Σ x_r
  and Σ x_c, and from them the bounded square root that the specification calls the distance of the pair; then the
  cost of the pair, chosen by the equality of the two labels; then the factor 1 or 0 according to whether the pair is
  above the diagonal (two index arrays compared as signed words: both indices are below 8192, so the signed comparison
  of the words is the comparison of the indices); then the sum of all the products and its quotient by the pair count.
  Each stage below states one of these values at the pair (r, c); the sum over the array's index set is the double sum
  over rows and columns, and the initial value of every sum is the zero word, which is zero.
-/
import proofs.«123170_j7172595385025_1_alg».proof.Proof.Spec
import proofs.«123170_j7172595385025_1_alg».proof.Proof.Gen.ReferenceIdeal.Read

noncomputable section

namespace Cert.Contrastive.Ref

open Idealize.ShloMosaic Idealize.ShloMosaic.ValueIdx Cert.ReferenceIdeal Cert.ReferenceIdeal.Read Cert.Contrastive

/-- The points and the labels, as the reference program's two arguments. -/
abbrev X : Type := (⟨S8192x256, .f32⟩ : BufTy).Contents (Elt Ideal)
abbrev L : Type := (⟨S8192, .i32⟩ : BufTy).Contents (Elt Ideal)

/-! ## Rows: squared norm, coordinate sum -/

/-- The row sum of x·x at row r is the squared norm of row r. -/
theorem sqn_at (x0 : X) (r : Fin 8192) : val_main_v1 (F := Ideal) x0 (ix1 r) = sqn x0 r := by
  rw [val_main_v1_apply, val_main_cst_apply, Ideal.ofBits_def, Ideal.ofBits_zero_f32, zero_add]
  unfold sqn
  refine Finset.sum_congr rfl fun k _ => ?_
  have e : idx_main_v1 (ix1 r) k = ix2 r k :=
    funext fun a => Fin.ext (by match a with | ⟨0, _⟩ => rfl | ⟨1, _⟩ => rfl)
  rw [val_main_v0_apply, e, Ideal.mulf_def]

/-- The row sum of x at row r. -/
theorem rsum_at (x0 : X) (r : Fin 8192) : val_main_v12 (F := Ideal) x0 (ix1 r) = rsum x0 r := by
  rw [val_main_v12_apply, val_main_cst_1_apply, Ideal.ofBits_def, Ideal.ofBits_zero_f32, zero_add]
  unfold rsum
  refine Finset.sum_congr rfl fun k _ => ?_
  have e : idx_main_v12 (ix1 r) k = ix2 r k :=
    funext fun a => Fin.ext (by match a with | ⟨0, _⟩ => rfl | ⟨1, _⟩ => rfl)
  rw [e]

/-! ## Pairs: inner product, the two broadcast sums, the distance -/

/-- The contraction of x with its transpose at (r, c) is the inner product of rows r and c. -/
theorem gram_at (x0 : X) (r c : Fin 8192) : val_main_v3 (F := Ideal) x0 (ix2 r c) = gram x0 x0 r c := by
  rw [val_main_v3_apply]
  unfold gram
  refine Finset.sum_congr rfl fun k _ => ?_
  have el : lidx_main_v3 (ix2 r c) k = ix2 r k :=
    funext fun a => Fin.ext (by match a with | ⟨0, _⟩ => rfl | ⟨1, _⟩ => rfl)
  have er : idx_main_v2 (ridx_main_v3 (ix2 r c) k) = ix2 c k :=
    funext fun a => Fin.ext (by match a with | ⟨0, _⟩ => rfl | ⟨1, _⟩ => rfl)
  rw [val_main_v2_apply, el, er]

/-- The column of squared norms plus the row of squared norms. -/
theorem sqn_add_at (x0 : X) (r c : Fin 8192) :
    val_main_v8 (F := Ideal) x0 (ix2 r c) = sqn x0 r + sqn x0 c := by
  have e1 : idx_main_v4 (idx_main_v6 (ix2 r c)) = ix1 r :=
    funext fun a => Fin.ext (by match a with | ⟨0, _⟩ => rfl)
  have e2 : idx_main_v5 (idx_main_v7 (ix2 r c)) = ix1 c :=
    funext fun a => Fin.ext (by match a with | ⟨0, _⟩ => rfl)
  rw [val_main_v8_apply, val_main_v6_apply, val_main_v4_apply, val_main_v7_apply, val_main_v5_apply, e1, e2,
    sqn_at, sqn_at, Ideal.addf_def]

/-- The column of coordinate sums minus the row of coordinate sums. -/
theorem rsum_sub_at (x0 : X) (r c : Fin 8192) :
    val_main_v17 (F := Ideal) x0 (ix2 r c) = rsum x0 r - rsum x0 c := by
  have e1 : idx_main_v13 (idx_main_v15 (ix2 r c)) = ix1 r :=
    funext fun a => Fin.ext (by match a with | ⟨0, _⟩ => rfl)
  have e2 : idx_main_v14 (idx_main_v16 (ix2 r c)) = ix1 c :=
    funext fun a => Fin.ext (by match a with | ⟨0, _⟩ => rfl)
  rw [val_main_v17_apply, val_main_v15_apply, val_main_v13_apply, val_main_v16_apply, val_main_v14_apply, e1, e2,
    rsum_at, rsum_at, Ideal.subf_def]

/-- The distance stage at (r, c) is the specification's distance of rows r and c. -/
theorem dist_at (x0 : X) (r c : Fin 8192) : val_main_v25 (F := Ideal) x0 (ix2 r c) = dist x0 x0 r c := by
  rw [val_main_v25_apply, val_main_v24_apply, val_main_v22_apply, val_main_v20_apply, val_main_v11_apply,
    val_main_v10_apply, val_main_v19_apply, val_main_v9_apply, val_main_v18_apply, val_main_v21_apply,
    val_main_v23_apply, val_main_cst_0_apply, val_main_cst_2_apply, val_main_cst_3_apply, val_main_cst_4_apply,
    sqn_add_at, gram_at, rsum_sub_at]
  rfl

/-! ## The cost of a pair -/

/-- The label comparison at (r, c) compares the labels of rows r and c. -/
theorem same_at (x1 : L) (r c : Fin 8192) :
    val_main_v30 (F := Ideal) x1 (ix2 r c) = IntOp.cmpi .eq (x1 (ix1 r)) (x1 (ix1 c)) := by
  have e1 : idx_main_v26 (idx_main_v28 (ix2 r c)) = ix1 r :=
    funext fun a => Fin.ext (by match a with | ⟨0, _⟩ => rfl)
  have e2 : idx_main_v27 (idx_main_v29 (ix2 r c)) = ix1 c :=
    funext fun a => Fin.ext (by match a with | ⟨0, _⟩ => rfl)
  rw [val_main_v30_apply, val_main_v28_apply, val_main_v26_apply, val_main_v29_apply, val_main_v27_apply, e1, e2]

/-- The chosen cost at (r, c): the squared distance for equal labels, the squared margin excess otherwise. -/
theorem cost_at (x0 : X) (x1 : L) (r c : Fin 8192) :
    val_main_v37 (F := Ideal) x0 x1 (ix2 r c)
      = if x1 (ix1 r) = x1 (ix1 c) then dist x0 x0 r c * dist x0 x0 r c
        else max (Ideal.ofBits .f32 0x3F800000#32 - dist x0 x0 r c) 0
          * max (Ideal.ofBits .f32 0x3F800000#32 - dist x0 x0 r c) 0 := by
  rw [val_main_v37_apply, val_main_v31_apply, val_main_v36_apply, val_main_v35_apply, val_main_v33_apply,
    val_main_v32_apply, val_main_v34_apply, val_main_cst_5_apply, val_main_cst_6_apply, same_at, dist_at,
    Ideal.ofBits_def, Ideal.ofBits_def, Ideal.ofBits_zero_f32]
  unfold Scalar.select
  exact if_congr IntOp.cmpi_eq rfl rfl

/-! ## The pairs above the diagonal -/

/-- A number below 8192, as a 32-bit word read as a signed integer, is itself. -/
theorem toInt_word (n : Nat) (h : n < 8192) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- The factor at (r, c): one above the diagonal, zero on and below it. -/
theorem upper_at (r c : Fin 8192) :
    val_main_v39 (F := Ideal) (ix2 r c) = if r.val < c.val then 1 else 0 := by
  rw [val_main_v39_apply, val_main_call1_v4_apply, val_main_call1_v2_apply, val_main_call1_v0_apply,
    val_main_call1_v1_apply, val_main_call1_c_apply, val_main_call1_v3_apply, val_main_call1_v5_apply,
    val_main_call1_cst_apply, val_main_v38_apply, val_main_cst_7_apply, Ideal.ofBits_def, Ideal.ofBits_def,
    Ideal.ofBits_zero_f32, one_word]
  show Scalar.select (IntOp.cmpi .sge (IntOp.addi (BitVec.ofNat 32 r.val) 0#32) (BitVec.ofNat 32 c.val)) (0 : EReal) 1 = _
  have h0 : IntOp.addi (BitVec.ofNat 32 r.val) 0#32 = BitVec.ofNat 32 r.val := by
    unfold IntOp.addi; exact BitVec.add_zero _
  have hge : IntOp.cmpi .sge (BitVec.ofNat 32 r.val) (BitVec.ofNat 32 c.val) = 1#1 ↔ ¬ r.val < c.val := by
    rw [IntOp.cmpi_sge, toInt_word r.val r.isLt, toInt_word c.val c.isLt]; omega
  unfold Scalar.select
  rw [h0]
  exact (if_congr hge rfl rfl).trans (ite_not _ _ _)

/-! ## The sum and the quotient -/

/-- The product at (r, c) is the specification's pair (r, c). -/
theorem pair_at (x0 : X) (x1 : L) (r c : Fin 8192) :
    val_main_v40 (F := Ideal) x0 x1 (ix2 r c) = pair x0 x1 r c := by
  rw [val_main_v40_apply, cost_at, upper_at, Ideal.mulf_def]
  rfl

/-- The sum of the products over the whole array is the sum over all pairs. -/
theorem total_at (x0 : X) (x1 : L) (i : S_.Idx) : val_main_v41 (F := Ideal) x0 x1 i = total x0 x1 := by
  rw [val_main_v41_apply, val_main_cst_8_apply, Ideal.ofBits_def, Ideal.ofBits_zero_f32, zero_add,
    sum_idx2 (n0 := 8192) (n1 := 8192)]
  unfold total
  exact Finset.sum_congr rfl fun r _ => Finset.sum_congr rfl fun c _ => pair_at x0 x1 r c

/-- The reference's result is the loss of the specification. -/
theorem ref_eq (x0 : X) (x1 : L) : val_main_v42 (F := Ideal) x0 x1 = result x0 x1 := by
  funext i
  rw [val_main_v42_apply, total_at, val_main_cst_9_apply]
  rfl

end Cert.Contrastive.Ref

end
-- ==== Proof.lean ====
/-
  The certificate of the tiled contrastive-loss kernel against its all-pairs reference.

  Both programs compute, for every pair of rows (r, c) of the points with r < c, the distance
  d = sqrt (max (|x_r|² + |x_c|² − 2⟨x_r, x_c⟩ + 2ε(Σx_r − Σx_c) + 256ε², 1e-12)), its cost d² (equal labels) or
  max (1 − d, 0)² (different labels), and the sum of the costs divided by the pair count. The reference forms the whole
  8192 × 8192 matrix of costs and sums it at once; the kernel walks a 16 × 16 grid of 512 × 512 tiles, adds each tile's
  sum to a one-element accumulator, and writes the accumulator out at the last tile. At the exact reading of the floats
  a change of float format is the identity, a matrix product into a zero accumulator is the inner product, and a sum
  is a sum in whatever order; the two results are then one extended real, because addition on the extended reals is
  commutative and associative — no finiteness of the inputs is used, and the precondition is not opened.

  The frames: each program runs to the end, faults nowhere and leaves its two arguments as they were. For the kernel
  (at words and at the exact reading alike) this is read off its run — the host reshapes, the pipelined region with
  the points' array shared between two windows, the trailing operations; for the reference off its run as a line of
  host operations. The idealization rewrote no operation, so there is nothing to preserve.
-/
import proofs.«123170_j7172595385025_1_alg».proof.Defs
import proofs.«123170_j7172595385025_1_alg».proof.Proof.Gen.Kernel
import proofs.«123170_j7172595385025_1_alg».proof.Proof.Gen.KernelIdeal
import proofs.«123170_j7172595385025_1_alg».proof.Proof.Gen.ReferenceIdeal
import proofs.«123170_j7172595385025_1_alg».proof.Proof.Gen.Pre_finite_inputs
import proofs.«123170_j7172595385025_1_alg».proof.Proof.Gen.ReferenceIdeal.Run
import proofs.«123170_j7172595385025_1_alg».proof.Proof.Gen.ReferenceIdeal.Read
import proofs.«123170_j7172595385025_1_alg».proof.Proof.KRun
import proofs.«123170_j7172595385025_1_alg».proof.Proof.KIValue
import proofs.«123170_j7172595385025_1_alg».proof.Proof.RefValue

noncomputable section

namespace Cert.Proof

open Idealize.ShloMosaic Idealize.ShloMosaic.TcCoe Idealize.SL.Sem

/-- The kernel as printed runs, and its arguments end unchanged. -/
theorem frame_k : Cert.frame_Kernel := fun m ρ _ =>
  (θ_run (Cert.Kernel.defs (F := Bits)) _ _).mono (fun _ h c => ⟨(h c).2.1, (h c).2.2⟩) (Cert.Kernel.Hand.run_main (F := Bits) m ρ)

/-- So does the kernel at the exact reading. -/
theorem frame_ki : Cert.frame_KernelIdeal := fun m ρ _ =>
  (θ_run (Cert.KernelIdeal.defs (F := Ideal)) _ _).mono (fun _ h c => ⟨(h c).2.1, (h c).2.2⟩) (Cert.KernelIdeal.Hand.run_main (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the exact reading both programs end with the loss of the specification, of arguments that agree. -/
theorem algebraic : Cert.algebraic_KernelIdeal_ReferenceIdeal := by
  intro m ρ m' ρ' _ hagree
  refine ⟨fun c => Cert.Contrastive.result (Cert.KernelIdeal.Hand.xs m c) (Cert.KernelIdeal.Hand.labs m c), ?_, ?_⟩
  · exact (θ_run (Cert.KernelIdeal.defs (F := Ideal)) _ _).mono
      (fun _ h c => ⟨(h c).1.trans (Cert.KernelIdeal.Hand.result_eq m c), (h c).2.1, (h c).2.2⟩)
      (Cert.KernelIdeal.Hand.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v42_eq, Cert.Contrastive.Ref.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
